-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S3x64 : Shape := ⟨2, ![3, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64x32 .f32) (main_arg5 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S8192x4 .f32) (main_arg1 : FVec F S8192x4 .f32) (main_arg2 : FVec F S3x64 .f32) (main_arg3 : FVec F S64 .f32) (main_arg4 : FVec F S64x32 .f32) (main_arg5 : FVec F S32 .f32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8192x4 : Shape := ⟨2, ![8192, 4]⟩
abbrev S3x64 : Shape := ⟨2, ![3, 64]⟩
abbrev S64 : Shape := ⟨1, ![64]⟩
abbrev S64x32 : Shape := ⟨2, ![64, 32]⟩
abbrev S32 : Shape := ⟨1, ![32]⟩
abbrev S8192x3 : Shape := ⟨2, ![8192, 3]⟩
abbrev S8192x1 : Shape := ⟨2, ![8192, 1]⟩
abbrev S1x64 : Shape := ⟨2, ![1, 64]⟩
abbrev S1x32 : Shape := ⟨2, ![1, 32]⟩
abbrev S8192x32 : Shape := ⟨2, ![8192, 32]⟩
abbrev S2048x3 : Shape := ⟨2, ![2048, 3]⟩
abbrev S2048x32 : Shape := ⟨2, ![2048, 32]⟩
abbrev S2048x64 : Shape := ⟨2, ![2048, 64]⟩
abbrev S8192x8192 : Shape := ⟨2, ![8192, 8192]⟩
abbrev S1024x32 : Shape := ⟨2, ![1024, 32]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 19
  | .vmem => 26
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S3x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S8192x3, .f32⟩
  | .hbm, ⟨7, _⟩ => ⟨S8192x3, .f32⟩
  | .hbm, ⟨8, _⟩ => ⟨S8192x1, .f32⟩
  | .hbm, ⟨9, _⟩ => ⟨S8192x1, .i32⟩
  | .hbm, ⟨10, _⟩ => ⟨S8192x1, .f32⟩
  | .hbm, ⟨11, _⟩ => ⟨S8192x1, .i32⟩
  | .hbm, ⟨12, _⟩ => ⟨S1x64, .f32⟩
  | .hbm, ⟨13, _⟩ => ⟨S1x32, .f32⟩
  | .hbm, ⟨14, _⟩ => ⟨S8192x32, .f32⟩
  | .hbm, ⟨15, _⟩ => ⟨S1x64, .f32⟩
  | .hbm, ⟨16, _⟩ => ⟨S1x32, .f32⟩
  | .hbm, ⟨17, _⟩ => ⟨S8192x32, .f32⟩
  | .hbm, ⟨18, _⟩ => ⟨S8192x8192, .f32⟩
  | .local _ .vmem, ⟨0, _⟩ => ⟨S2048x3, .f32⟩
  | .local _ .vmem, ⟨1, _⟩ => ⟨S2048x3, .f32⟩
  | .local _ .vmem, ⟨2, _⟩ => ⟨S3x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S2048x32, .f32⟩
  | .local _ .vmem, ⟨7, _⟩ => ⟨S2048x32, .f32⟩
  | .local _ .vmem, ⟨8, _⟩ => ⟨S2048x3, .f32⟩
  | .local _ .vmem, ⟨9, _⟩ => ⟨S2048x3, .f32⟩
  | .local _ .vmem, ⟨10, _⟩ => ⟨S3x64, .f32⟩
  | .local _ .vmem, ⟨11, _⟩ => ⟨S1x64, .f32⟩
  | .local _ .vmem, ⟨12, _⟩ => ⟨S64x32, .f32⟩
  | .local _ .vmem, ⟨13, _⟩ => ⟨S1x32, .f32⟩
  | .local _ .vmem, ⟨14, _⟩ => ⟨S2048x32, .f32⟩
  | .local _ .vmem, ⟨15, _⟩ => ⟨S2048x32, .f32⟩
  | .local _ .vmem, ⟨16, _⟩ => ⟨S1024x32, .f32⟩
  | .local _ .vmem, ⟨17, _⟩ => ⟨S1024x32, .f32⟩
  | .local _ .vmem, ⟨18, _⟩ => ⟨S1024x32, .f32⟩
  | .local _ .vmem, ⟨19, _⟩ => ⟨S1024x32, .f32⟩
  | .local _ .vmem, ⟨20, _⟩ => ⟨S1024x1, .i32⟩
  | .local _ .vmem, ⟨21, _⟩ => ⟨S1024x1, .i32⟩
  | .local _ .vmem, ⟨22, _⟩ => ⟨S1024x1, .i32⟩
  | .local _ .vmem, ⟨23, _⟩ => ⟨S1024x1, .i32⟩
  | .local _ .vmem, ⟨24, _⟩ => ⟨S1024x1024, .f32⟩
  | .local _ .vmem, ⟨25, _⟩ => ⟨S1024x1024, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  slices_S8192x4_S8192x3_0_0 : S8192x4.Slices ![0, 0] S8192x3
  slices_S8192x4_S8192x1_0_3 : S8192x4.Slices ![0, 3] S8192x1
  shapeCasts_S64_S1x64 : S64.ShapeCasts S1x64
  shapeCasts_S32_S1x32 : S32.ShapeCasts S1x32
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  bitsLt_bf16_f32 : FTy.bits .bf16 < FTy.bits .f32
  reduces_S1024x32_S1024 : S1024x32.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  dot_S2048x3_S3x64_S2048x64_1_0_0_1_n_n_wf : DotDims.WF S2048x3 S3x64 S2048x64 [1] [0] [0] [1] [] []
  dot_S2048x64_S64x32_S2048x32_1_0_0_1_n_n_wf : DotDims.WF S2048x64 S64x32 S2048x32 [1] [0] [0] [1] [] []
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S8192x3.size a
  hwx0_0 : ∀ i : grid0.Coords, EltTy.bits .f32 = 32 ∨ (Rect.block (s := S8192x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x32.size a ≤ S8192x32.size a
  hwx0_5 : ∀ i : grid0.Coords, EltTy.bits .f32 = 32 ∨ (Rect.block (s := S8192x32) S2048x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x3.size a ≤ S8192x3.size a
  hwx1_0 : ∀ i : grid1.Coords, EltTy.bits .f32 = 32 ∨ (Rect.block (s := S8192x3) S2048x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x64.size a ≤ S3x64.size a
  hwx1_1 : ∀ i : grid1.Coords, EltTy.bits .f32 = 32 ∨ (Rect.block (s := S3x64) S3x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x32.size a ≤ S8192x32.size a
  hwx1_5 : ∀ i : grid1.Coords, EltTy.bits .f32 = 32 ∨ (Rect.block (s := S8192x32) S2048x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x32.size a ≤ S8192x32.size a
  hwx2_0 : ∀ i : grid2.Coords, EltTy.bits .f32 = 32 ∨ (Rect.block (s := S8192x32) S1024x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S8192x32.size a
  hwx2_1 : ∀ i : grid2.Coords, EltTy.bits .f32 = 32 ∨ (Rect.block (s := S8192x32) S1024x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .i32 = 32 ∨ (Rect.block (s := S8192x1) S1024x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .i32 = 32 ∨ (Rect.block (s := S8192x1) S1024x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x8192.size a
  hwx2_4 : ∀ i : grid2.Coords, EltTy.bits .f32 = 32 ∨ (Rect.block (s := S8192x8192) S1024x1024.size (cc2_transform_4 i) (hinb2_4 i)).WholeWords (EltTy.packing .f32)

variable [Facts₀]

def dot_S2048x3_S3x64_S2048x64_1_0_0_1_n_n : DotDims S2048x3 S3x64 S2048x64 where
  lhsContracting := [1]
  rhsContracting := [0]
  lhsNonContracting := [0]
  rhsNonContracting := [1]
  lhsBatch := []
  rhsBatch := []
  wf := dot_S2048x3_S3x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_v0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S2048x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S3x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S2048x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v8) S1024x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x4 : Shape := ⟨2, ![8192, 4]⟩
abbrev S3x64 : Shape := ⟨2, ![3, 64]⟩
abbrev S64 : Shape := ⟨1, ![64]⟩
abbrev S64x32 : Shape := ⟨2, ![64, 32]⟩
abbrev S32 : Shape := ⟨1, ![32]⟩
abbrev S8192x3 : Shape := ⟨2, ![8192, 3]⟩
abbrev S8192x64 : Shape := ⟨2, ![8192, 64]⟩
abbrev S1x64 : Shape := ⟨2, ![1, 64]⟩
abbrev S_ : Shape := ⟨0, ![]⟩
abbrev S8192x32 : Shape := ⟨2, ![8192, 32]⟩
abbrev S1x32 : Shape := ⟨2, ![1, 32]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S8192x1x1 : Shape := ⟨3, ![8192, 1, 1]⟩
abbrev S1x8192x1 : Shape := ⟨3, ![1, 8192, 1]⟩
abbrev S8192x8192x1 : Shape := ⟨3, ![8192, 8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S3x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S8192x3, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x64, .f32⟩
  | .hbm, ⟨14, _⟩ => ⟨S8192x32, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x3, .f32⟩
  | .hbm, ⟨19, _⟩ => ⟨S8192x64, .f32⟩
  | .hbm, ⟨20, _⟩ => ⟨S1x64, .f32⟩
  | .hbm, ⟨21, _⟩ => ⟨S8192x64, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x64, .f32⟩
  | .hbm, ⟨26, _⟩ => ⟨S8192x32, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x8192, .f32⟩
  | .hbm, ⟨31, _⟩ => ⟨S8192x32, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x32, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x1, .f32⟩
  | .hbm, ⟨49, _⟩ => ⟨S8192x1, .i32⟩
  | .hbm, ⟨50, _⟩ => ⟨S8192x1, .f32⟩
  | .hbm, ⟨51, _⟩ => ⟨S8192x1, .i32⟩
  | .hbm, ⟨52, _⟩ => ⟨S8192x1x1, .i32⟩
  | .hbm, ⟨53, _⟩ => ⟨S1x8192x1, .i32⟩
  | .hbm, ⟨54, _⟩ => ⟨S8192x8192x1, .i32⟩
  | .hbm, ⟨55, _⟩ => ⟨S8192x8192x1, .i32⟩
  | .hbm, ⟨56, _⟩ => ⟨S8192x8192x1, .i1⟩
  | .hbm, ⟨57, _⟩ => ⟨S_, .i1⟩
  | .hbm, ⟨58, _⟩ => ⟨S8192x8192, .i1⟩
  | .hbm, ⟨59, _⟩ => ⟨S8192x8192, .f32⟩
  | .hbm, ⟨60, _⟩ => ⟨S8192x8192, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_cst : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_v21 : Ref sig .tc := ⟨.hbm, 34, rfl⟩
abbrev main_call3_v0 : Ref sig .tc := ⟨.hbm, 35, rfl⟩
abbrev main_call3_cst : Ref sig .tc := ⟨.hbm, 36, rfl⟩
abbrev main_call3_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  slices_S8192x4_S8192x3_0_0 : S8192x4.Slices ![0, 0] S8192x3
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  slices_S8192x4_S8192x1_0_3 : S8192x4.Slices ![0, 3] S8192x1
  bcast_S8192x1_S8192x1x1_0_2 : S8192x1.BroadcastsInDim S8192x1x1 (![0, 2] : Fin 2 → Fin S8192x1x1.rank)
  bcast_S8192x1_S1x8192x1_1_2 : S8192x1.BroadcastsInDim S1x8192x1 (![1, 2] : Fin 2 → Fin S1x8192x1.rank)
  bcast_S8192x1x1_S8192x8192x1_0_1_2 : S8192x1x1.BroadcastsInDim S8192x8192x1 (![0, 1, 2] : Fin 3 → Fin S8192x8192x1.rank)
  bcast_S1x8192x1_S8192x8192x1_0_1_2 : S1x8192x1.BroadcastsInDim S8192x8192x1 (![0, 1, 2] : Fin 3 → Fin S8192x8192x1.rank)
  reducesTo_S8192x8192x1_S8192x8192_d2 : S8192x8192x1.ReducesTo [2] S8192x8192
  dot_S8192x3_S3x64_S8192x64_1_0_0_1_n_n_wf : DotDims.WF S8192x3 S3x64 S8192x64 [1] [0] [0] [1] [] []
  dot_S8192x64_S64x32_S8192x32_1_0_0_1_n_n_wf : DotDims.WF S8192x64 S64x32 S8192x32 [1] [0] [0] [1] [] []
  dot_S8192x32_S8192x32_S8192x8192_1_1_0_0_n_n_wf : DotDims.WF S8192x32 S8192x32 S8192x8192 [1] [1] [0] [0] [] []

variable [Facts₀]

def dot_S8192x3_S3x64_S8192x64_1_0_0_1_n_n : DotDims S8192x3 S3x64 S8192x64 where
  lhsContracting := [1]
  rhsContracting := [0]
  lhsNonContracting := [0]
  rhsNonContracting := [1]
  lhsBatch := []
  rhsBatch := []
  wf := dot_S8192x3_S3x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S8192x32_S8192x8192_1_1_0_0_n_n : DotDims S8192x32 S8192x32 S8192x8192 where
  lhsContracting := [1]
  rhsContracting := [1]
  lhsNonContracting := [0]
  rhsNonContracting := [0]
  lhsBatch := []
  rhsBatch := []
  wf := dot_S8192x32_S8192x32_S8192x8192_1_1_0_0_n_n_wf

class Facts : Prop extends Facts₀ where

variable [Facts]
-- ==== Proof.Spec.lean ====
/-
  The function both programs compute, entry by entry on the extended reals.

  Two point sets of 8192 rows each carry three coordinates and a class label (the fourth column, a float that is
  converted to a 32-bit integer). Each row's coordinates go through the same two-layer perceptron: hidden unit k is
  max(sum_j x_j * W1(j,k) + b1(k), 0), and feature q is sum_k hidden_k * W2(k,q) + b2(q), 32 features per row.
  Entry (p, q) of the result compares row p of the first set with row q of the second: when the two class labels
  are equal it is the cosine of the two feature vectors, their inner product divided by the product of their
  Euclidean norms, the product of norms bounded below by the f32 value nearest 1e-8; when the labels differ it
  is zero.

  The perceptron and the cosine are stated for one row (or one pair of rows) given as functions of the
  coordinate, so that the same definition reads a block of rows and the whole array.
-/
import Idealize.ShloMosaic.PureOps.Ideal.Laws
import Idealize.ShloMosaic.Lib.ValueIdx

noncomputable section

open scoped BigOperators

namespace Cert.Spec

open Idealize.ShloMosaic Idealize.ShloMosaic.ValueIdx

/-- The value of the zero word. -/
abbrev zeroW : EReal := Ideal.ofBits .f32 0x00000000#32

/-- The lower bound put under the product of the two norms: the f32 value nearest 1e-8, as its binary value. -/
abbrev epsW : EReal := Ideal.ofBits .f32 0x322BCC77#32

/-- The perceptron on one row xr of three coordinates, feature q. The biases are rows [1, 64] and [1, 32]. -/
def featRow (xr : Fin 3 → EReal) (W1 : (⟨2, ![3, 64]⟩ : Shape).Idx → EReal) (b1 : (⟨2, ![1, 64]⟩ : Shape).Idx → EReal)
    (W2 : (⟨2, ![64, 32]⟩ : Shape).Idx → EReal) (b2 : (⟨2, ![1, 32]⟩ : Shape).Idx → EReal) (q : Fin 32) : EReal :=
  (∑ k : Fin 64, max ((∑ j : Fin 3, xr j * W1 (ix2 j k)) + b1 (ix2 (0 : Fin 1) k)) zeroW * W2 (ix2 k q))
    + b2 (ix2 (0 : Fin 1) q)

/-- The perceptron on every row of an [n, 3] array: an [n, 32] array of features. -/
def feat {n : ℕ} (x : (⟨2, ![n, 3]⟩ : Shape).Idx → EReal) (W1 : (⟨2, ![3, 64]⟩ : Shape).Idx → EReal)
    (b1 : (⟨2, ![1, 64]⟩ : Shape).Idx → EReal) (W2 : (⟨2, ![64, 32]⟩ : Shape).Idx → EReal)
    (b2 : (⟨2, ![1, 32]⟩ : Shape).Idx → EReal) : (⟨2, ![n, 32]⟩ : Shape).Idx → EReal :=
  fun i => featRow (fun j => x (ix2 (i 0) j)) W1 b1 W2 b2 (i 1)

/-- The cosine of two feature vectors with the product of norms bounded below by epsW. -/
def cosAt (u v : Fin 32 → EReal) : EReal :=
  Ideal.div (∑ k : Fin 32, u k * v k)
    (max (Ideal.sqrt (∑ k : Fin 32, u k * u k) * Ideal.sqrt (∑ k : Fin 32, v k * v k)) epsW)

/-- One entry of the result: the cosine where the two labels are equal, zero elsewhere. -/
def pairAt (u v : Fin 32 → EReal) (a b : BitVec 32) : EReal :=
  Scalar.select (IntOp.cmpi .eq a b) (cosAt u v) zeroW

/-- Every pair of rows of two feature arrays with their label columns: an [n1, n2] array. -/
def pair {n1 n2 : ℕ} (f1 : (⟨2, ![n1, 32]⟩ : Shape).Idx → EReal) (f2 : (⟨2, ![n2, 32]⟩ : Shape).Idx → EReal)
    (c1 : (⟨2, ![n1, 1]⟩ : Shape).Idx → BitVec 32) (c2 : (⟨2, ![n2, 1]⟩ : Shape).Idx → BitVec 32) :
    (⟨2, ![n1, n2]⟩ : Shape).Idx → EReal :=
  fun i => pairAt (fun k => f1 (ix2 (i 0) k)) (fun k => f2 (ix2 (i 1) k)) (c1 (ix2 (i 0) (0 : Fin 1))) (c2 (ix2 (i 1) (0 : Fin 1)))

/-- The first three columns of an [n, 4] array. -/
def coords {n : ℕ} (a : (⟨2, ![n, 4]⟩ : Shape).Idx → EReal) : (⟨2, ![n, 3]⟩ : Shape).Idx → EReal :=
  fun i => a (ix2 (i 0) (Fin.castLE (by decide : 3 ≤ 4) (i 1)))

/-- The fourth column of an [n, 4] array converted to 32-bit integers: the class labels, an [n, 1] array. -/
def labels {n : ℕ} (a : (⟨2, ![n, 4]⟩ : Shape).Idx → EReal) : (⟨2, ![n, 1]⟩ : Shape).Idx → BitVec 32 :=
  fun i => FloatOps.fptosi (F := Ideal) (φ := .f32) 32 (a (ix2 (i 0) (3 : Fin 4)))

/-- A vector [n] as a row [1, n]. -/
def asRow {n : ℕ} (b : (⟨1, ![n]⟩ : Shape).Idx → EReal) : (⟨2, ![1, n]⟩ : Shape).Idx → EReal :=
  fun i => b (ix1 (i 1))

/-- The whole result as a function of the six argument arrays. -/
def G (a0 a1 : (⟨2, ![8192, 4]⟩ : Shape).Idx → EReal) (W1 : (⟨2, ![3, 64]⟩ : Shape).Idx → EReal)
    (b1 : (⟨1, ![64]⟩ : Shape).Idx → EReal) (W2 : (⟨2, ![64, 32]⟩ : Shape).Idx → EReal)
    (b2 : (⟨1, ![32]⟩ : Shape).Idx → EReal) : (⟨2, ![8192, 8192]⟩ : Shape).Idx → EReal :=
  pair (feat (coords a0) W1 (asRow b1) W2 (asRow b2)) (feat (coords a1) W1 (asRow b1) W2 (asRow b2))
    (labels a0) (labels a1)

theorem feat_apply {n : ℕ} (x : (⟨2, ![n, 3]⟩ : Shape).Idx → EReal) (W1 : (⟨2, ![3, 64]⟩ : Shape).Idx → EReal)
    (b1 : (⟨2, ![1, 64]⟩ : Shape).Idx → EReal) (W2 : (⟨2, ![64, 32]⟩ : Shape).Idx → EReal)
    (b2 : (⟨2, ![1, 32]⟩ : Shape).Idx → EReal) (p : Fin n) (q : Fin 32) :
    feat x W1 b1 W2 b2 (ix2 p q) = featRow (fun j => x (ix2 p j)) W1 b1 W2 b2 q := rfl

theorem pair_apply {n1 n2 : ℕ} (f1 : (⟨2, ![n1, 32]⟩ : Shape).Idx → EReal) (f2 : (⟨2, ![n2, 32]⟩ : Shape).Idx → EReal)
    (c1 : (⟨2, ![n1, 1]⟩ : Shape).Idx → BitVec 32) (c2 : (⟨2, ![n2, 1]⟩ : Shape).Idx → BitVec 32) (p : Fin n1) (q : Fin n2) :
    pair f1 f2 c1 c2 (ix2 p q)
      = pairAt (fun k => f1 (ix2 p k)) (fun k => f2 (ix2 q k)) (c1 (ix2 p (0 : Fin 1))) (c2 (ix2 q (0 : Fin 1))) := rfl

end Cert.Spec

end
-- ==== Proof.KRun.lean ====
/-
  The run of the idealized kernel program with its result array named.

  The program is five segments: host operations, the perceptron on the first point set, host operations, the
  perceptron on the second point set, and the pairwise stage. The memory at each boundary is a fold from the launch
  memory: a stretch of host operations applies them, and a pipelined call replaces each of its arrays by what its
  write-backs leave. Every weakly fair execution terminates without a fault, and in the final state every buffer
  that is not a staging buffer holds the last boundary's contents. Read at the result buffer this names the result
  array as the last fold at that buffer; read at the six arguments it gives back the launch contents, because no
  segment writes an argument.
-/
import proofs.«173896_j76819785056586_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents of its buffer, and the six argument arrays end as launched. -/
theorem run_named : θ_run defs (onTc (τ := τ) (main (F := F))) ⟨m, fun _ => 0, ρ⟩ (fun r => ∀ c : Dev nD,
      r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.KHost.lean ====
/-
  The contents of the buffers the three pipelined calls read, traced back to the launch memory.

  The memory at each boundary between segments is a fold from the launch memory. A host operation writes its one
  result buffer and leaves every other buffer alone; a pipelined call changes only its output array, and an array
  it reads through an input window is as it was on entry. So each buffer a call reads is found by walking back to
  the segment that wrote it: the coordinate and label columns are slices of the two point sets written by the
  first stretch of host operations, the bias rows are reshapes of the bias vectors, the weights are the launch
  contents, and the two feature arrays are what the first two calls leave in their output arrays.
-/
import proofs.«173896_j76819785056586_1_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## After the first stretch of host operations -/

/-- The coordinate columns of the first point set. -/
theorem W1_v0 (c : Dev nD) : W1 m ρ c (Proc.devRef .tc main_v0)
    = extractStridedSlice S8192x3 ![0, 0] (m ((c : Thread nD τ).loc main_arg0)) slices_S8192x4_S8192x3_0_0 := by
  show StableHlo.after hostOps0 (W0 m ρ c) (Proc.devRef .tc main_v0) = _
  after_results

/-- The coordinate columns of the second point set. -/
theorem W1_v1 (c : Dev nD) : W1 m ρ c (Proc.devRef .tc main_v1)
    = extractStridedSlice S8192x3 ![0, 0] (m ((c : Thread nD τ).loc main_arg1)) slices_S8192x4_S8192x3_0_0 := by
  show StableHlo.after hostOps0 (W0 m ρ c) (Proc.devRef .tc main_v1) = _
  after_results

/-- The labels of the first point set: its fourth column converted to integers. -/
theorem W1_v3 (c : Dev nD) : W1 m ρ c (Proc.devRef .tc main_v3)
    = fptosi 32 (extractStridedSlice S8192x1 ![0, 3] (m ((c : Thread nD τ).loc main_arg0)) slices_S8192x4_S8192x1_0_3) := by
  show StableHlo.after hostOps0 (W0 m ρ c) (Proc.devRef .tc main_v3) = _
  after_results

/-- The labels of the second point set. -/
theorem W1_v5 (c : Dev nD) : W1 m ρ c (Proc.devRef .tc main_v5)
    = fptosi 32 (extractStridedSlice S8192x1 ![0, 3] (m ((c : Thread nD τ).loc main_arg1)) slices_S8192x4_S8192x1_0_3) := by
  show StableHlo.after hostOps0 (W0 m ρ c) (Proc.devRef .tc main_v5) = _
  after_results

/-- The first bias as a row. -/
theorem W1_v6 (c : Dev nD) : W1 m ρ c (Proc.devRef .tc main_v6)
    = shapeCast S1x64 (m ((c : Thread nD τ).loc main_arg3)) shapeCasts_S64_S1x64 := by
  show StableHlo.after hostOps0 (W0 m ρ c) (Proc.devRef .tc main_v6) = _
  after_results; rfl

/-- The second bias as a row. -/
theorem W1_v7 (c : Dev nD) : W1 m ρ c (Proc.devRef .tc main_v7)
    = shapeCast S1x32 (m ((c : Thread nD τ).loc main_arg5)) shapeCasts_S32_S1x32 := by
  show StableHlo.after hostOps0 (W0 m ρ c) (Proc.devRef .tc main_v7) = _
  after_results; rfl

/-- The first stretch writes no argument: the two weight matrices and the two bias vectors are as launched. -/
theorem W1_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## After the first call -/

/-- The first call's output array: the features of the first point set, as its write-backs leave them. -/
theorem W2_v8 (c : Dev nD) : W2 m ρ c (Proc.devRef .tc main_v8) = (dat0 (V1 m ρ) c).arrAt 5 cfg0.N := W2_arr m ρ c 5

/-- Buffers that are none of the first call's arrays are as they were on entry. -/
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v5 (c : Dev nD) : W2 m ρ c (Proc.devRef .tc main_v5) = W1 m ρ c (Proc.devRef .tc main_v5) := W2_of_ne m ρ c main_v5 (by decide)
theorem W2_arg3 (c : Dev nD) : W2 m ρ c (Proc.devRef .tc main_arg3) = W1 m ρ c (Proc.devRef .tc main_arg3) := W2_of_ne m ρ c main_arg3 (by decide)
theorem W2_arg5 (c : Dev nD) : W2 m ρ c (Proc.devRef .tc main_arg5) = W1 m ρ c (Proc.devRef .tc main_arg5) := W2_of_ne m ρ c main_arg5 (by decide)

/-- The two weight matrices are read through input windows, which are never written back. -/
theorem W2_arg2 (c : Dev nD) : W2 m ρ c (Proc.devRef .tc main_arg2) = W1 m ρ c (Proc.devRef .tc main_arg2) :=
  (W2_arr m ρ c 1).trans (((dat0 (V1 m ρ) c).arrAt_in 1 rfl _).trans (A_eq0 (V1 m ρ) c 1))
theorem W2_arg4 (c : Dev nD) : W2 m ρ c (Proc.devRef .tc main_arg4) = W1 m ρ c (Proc.devRef .tc main_arg4) :=
  (W2_arr m ρ c 3).trans (((dat0 (V1 m ρ) c).arrAt_in 3 rfl _).trans (A_eq0 (V1 m ρ) c 3))

/-! ## After the second stretch of host operations -/

/-- The first bias as a row, reshaped again for the second call. -/
theorem W3_v9 (c : Dev nD) : W3 m ρ c (Proc.devRef .tc main_v9)
    = shapeCast S1x64 (W2 m ρ c (Proc.devRef .tc main_arg3)) shapeCasts_S64_S1x64 := by
  show StableHlo.after hostOps1 (W2 m ρ c) (Proc.devRef .tc main_v9) = _
  after_results; rfl

/-- The second bias as a row, reshaped again for the second call. -/
theorem W3_v10 (c : Dev nD) : W3 m ρ c (Proc.devRef .tc main_v10)
    = shapeCast S1x32 (W2 m ρ c (Proc.devRef .tc main_arg5)) shapeCasts_S32_S1x32 := by
  show StableHlo.after hostOps1 (W2 m ρ c) (Proc.devRef .tc main_v10) = _
  after_results; rfl

/-- The second stretch writes only the two rows above. -/
theorem W3_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_v3 (c : Dev nD) : W3 m ρ c (Proc.devRef .tc main_v3) = W2 m ρ c (Proc.devRef .tc main_v3) :=
  StableHlo.after_of_forall_not_mem (b := Proc.devRef .tc main_v3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_v5 (c : Dev nD) : W3 m ρ c (Proc.devRef .tc main_v5) = W2 m ρ c (Proc.devRef .tc main_v5) :=
  StableHlo.after_of_forall_not_mem (b := Proc.devRef .tc main_v5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_v8 (c : Dev nD) : W3 m ρ c (Proc.devRef .tc main_v8) = W2 m ρ c (Proc.devRef .tc main_v8) :=
  StableHlo.after_of_forall_not_mem (b := Proc.devRef .tc main_v8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## After the second call -/

/-- The second call's output array: the features of the second point set. -/
theorem W4_v11 (c : Dev nD) : W4 m ρ c (Proc.devRef .tc main_v11) = (dat1 (V3 m ρ) c).arrAt 5 cfg1.N := W4_arr m ρ c 5

/-- Buffers that are none of the second call's arrays are as they were on entry. -/
theorem W4_v8 (c : Dev nD) : W4 m ρ c (Proc.devRef .tc main_v8) = W3 m ρ c (Proc.devRef .tc main_v8) := W4_of_ne m ρ c main_v8 (by decide)
theorem W4_v3 (c : Dev nD) : W4 m ρ c (Proc.devRef .tc main_v3) = W3 m ρ c (Proc.devRef .tc main_v3) := W4_of_ne m ρ c main_v3 (by decide)
theorem W4_v5 (c : Dev nD) : W4 m ρ c (Proc.devRef .tc main_v5) = W3 m ρ c (Proc.devRef .tc main_v5) := W4_of_ne m ρ c main_v5 (by decide)

/-! ## What each call reads, and what the last call leaves -/

/-- The second call reads the coordinate columns of the second point set, -/
theorem in1_x (c : Dev nD) : V3 m ρ c main_v1
    = extractStridedSlice S8192x3 ![0, 0] (m ((c : Thread nD τ).loc main_arg1)) slices_S8192x4_S8192x3_0_0 :=
  (W3_v1 m ρ c).trans ((W2_v1 m ρ c).trans (W1_v1 m ρ c))
/-- the first weight matrix, -/
theorem in1_W1 (c : Dev nD) : V3 m ρ c main_arg2 = m ((c : Thread nD τ).loc main_arg2) :=
  (W3_arg2 m ρ c).trans ((W2_arg2 m ρ c).trans (W1_arg2 m ρ c))
/-- the first bias as a row, -/
theorem in1_b1 (c : Dev nD) : V3 m ρ c main_v9 = shapeCast S1x64 (m ((c : Thread nD τ).loc main_arg3)) shapeCasts_S64_S1x64 :=
  (W3_v9 m ρ c).trans (congrArg (fun b => shapeCast S1x64 b shapeCasts_S64_S1x64) ((W2_arg3 m ρ c).trans (W1_arg3 m ρ c)))
/-- the second weight matrix, -/
theorem in1_W2 (c : Dev nD) : V3 m ρ c main_arg4 = m ((c : Thread nD τ).loc main_arg4) :=
  (W3_arg4 m ρ c).trans ((W2_arg4 m ρ c).trans (W1_arg4 m ρ c))
/-- and the second bias as a row. -/
theorem in1_b2 (c : Dev nD) : V3 m ρ c main_v10 = shapeCast S1x32 (m ((c : Thread nD τ).loc main_arg5)) shapeCasts_S32_S1x32 :=
  (W3_v10 m ρ c).trans (congrArg (fun b => shapeCast S1x32 b shapeCasts_S32_S1x32) ((W2_arg5 m ρ c).trans (W1_arg5 m ρ c)))

/-- The last call reads the two feature arrays the first two calls left, -/
theorem in2_f1 (c : Dev nD) : V4 m ρ c main_v8 = (dat0 (V1 m ρ) c).arrAt 5 cfg0.N :=
  (W4_v8 m ρ c).trans ((W3_v8 m ρ c).trans (W2_v8 m ρ c))
theorem in2_f2 (c : Dev nD) : V4 m ρ c main_v11 = (dat1 (V3 m ρ) c).arrAt 5 cfg1.N := W4_v11 m ρ c
/-- and the two label columns. -/
theorem in2_c1 (c : Dev nD) : V4 m ρ c main_v3
    = fptosi 32 (extractStridedSlice S8192x1 ![0, 3] (m ((c : Thread nD τ).loc main_arg0)) slices_S8192x4_S8192x1_0_3) :=
  (W4_v3 m ρ c).trans ((W3_v3 m ρ c).trans ((W2_v3 m ρ c).trans (W1_v3 m ρ c)))
theorem in2_c2 (c : Dev nD) : V4 m ρ c main_v5
    = fptosi 32 (extractStridedSlice S8192x1 ![0, 3] (m ((c : Thread nD τ).loc main_arg1)) slices_S8192x4_S8192x1_0_3) :=
  (W4_v5 m ρ c).trans ((W3_v5 m ρ c).trans ((W2_v5 m ρ c).trans (W1_v5 m ρ c)))

/-- The result buffer after the last call is the last call's output array as its write-backs leave it. -/
theorem result_arr (c : Dev nD) : W5 m ρ c (Proc.devRef .tc main_v12) = (dat2 (V4 m ρ) c).arrAt 4 cfg2.N := W5_arr m ρ c 4

end Cert.KernelIdeal.Host

end
-- ==== Proof.KCols.lean ====
/-
  Three host layout operations as the columns and rows the specification names.

  A slice of the first three columns of an [n, 4] array reads, at (r, j), the array at (r, j). The label column is
  the slice of the fourth column, read at (r, 0) as the array at (r, 3), converted to integers entry by entry. A
  vector [n] reshaped to a row [1, n] reads, at (0, i), the vector at i: in row-major order (0, i) has position
  0 * n + i = i.
-/
import Idealize.ShloMosaic.Lib.Pipeline.Value
import proofs.«173896_j76819785056586_1_alg».proof.Proof.Spec

noncomputable section

namespace Cert.Spec

open Idealize.ShloMosaic Idealize.ShloMosaic.ValueIdx

/-- The slice [0:n, 0:3] of an [n, 4] array is its coordinate columns. -/
theorem slice_coords {n : ℕ} (a : (⟨2, ![n, 4]⟩ : Shape).Idx → EReal)
    (h : (⟨2, ![n, 4]⟩ : Shape).Slices ![0, 0] ⟨2, ![n, 3]⟩) :
    extractStridedSlice ⟨2, ![n, 3]⟩ ![0, 0] a h = coords a :=
  funext fun i => extractStridedSlice_apply ![0, 0] a h i (ix2 (i 0) (Fin.castLE (by decide : 3 ≤ 4) (i 1))) (fun ax =>
    match ax with
    | ⟨0, _⟩ => by show (i 0).val = 0 + (i 0).val; omega
    | ⟨1, _⟩ => by show (i 1).val = 0 + (i 1).val; omega)

/-- The slice [0:n, 3:4] of an [n, 4] array converted to 32-bit integers is its label column. -/
theorem slice_labels {n : ℕ} (a : (⟨2, ![n, 4]⟩ : Shape).Idx → EReal)
    (h : (⟨2, ![n, 4]⟩ : Shape).Slices ![0, 3] ⟨2, ![n, 1]⟩) :
    fptosi (F := Ideal) (φ := .f32) 32 (extractStridedSlice ⟨2, ![n, 1]⟩ ![0, 3] a h) = labels a :=
  funext fun i => congrArg (FloatOps.fptosi (F := Ideal) (φ := .f32) 32)
    (extractStridedSlice_apply ![0, 3] a h i (ix2 (i 0) (3 : Fin 4)) (fun ax =>
      match ax with
      | ⟨0, _⟩ => by show (i 0).val = 0 + (i 0).val; omega
      | ⟨1, _⟩ => by
        have h1 : (i 1).val < 1 := (i 1).isLt
        show 3 = 3 + (i 1).val
        omega))

/-- A vector reshaped to a one-row matrix is the vector as a row. -/
theorem reshape_asRow {n : ℕ} (b : (⟨1, ![n]⟩ : Shape).Idx → EReal)
    (h : (⟨1, ![n]⟩ : Shape).ShapeCasts ⟨2, ![1, n]⟩) :
    shapeCast ⟨2, ![1, n]⟩ b h = asRow b :=
  funext fun i => shapeCast_apply b h i (ix1 (i 1)) (by
    have h0 : (i 0).val < 1 := (i 0).isLt
    have hu : (i 0).val = 0 := by omega
    rw [Shape.rowMajor_val_two, Shape.rowMajor_val_one]
    show (i 1).val = (i 0).val * n + (i 1).val
    rw [hu, Nat.zero_mul, Nat.zero_add])

end Cert.Spec

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.KMlp.lean ====
/-
  The perceptron block, entry by entry.

  One block of 2048 rows with three coordinates each goes through hidden = max(x · W1 + b1, 0) and
  out = hidden · W2 + b2. Entry (p, q) of the result is
    sum over k < 64 of max(sum over j < 3 of x(p, j) · W1(j, k) + b1(0, k), 0) · W2(k, q), plus b2(0, q):
  each matrix product into the zero accumulator is the plain sum of products, each bias is one row repeated down
  the block, the casts to the same shape change nothing, and the lower bound is the zero word's value everywhere.
-/
import proofs.«173896_j76819785056586_1_alg».proof.Proof.Gen.KernelIdeal.Skeleton
import proofs.«173896_j76819785056586_1_alg».proof.Proof.Spec
import proofs.«173896_j76819785056586_1_alg».proof.Proof.LibPlainDot
import Idealize.ShloMosaic.Lib.ValueLayout

noncomputable section

open scoped BigOperators

namespace Cert.KernelIdeal.Mlp

open Idealize.ShloMosaic Idealize.ShloMosaic.ValueIdx

/-- The affine layer at one entry: a product into the zero accumulator plus a bias row repeated down the rows is
    the sum of products plus the bias entry of that column. -/
theorem affine_apply {M K N : Nat} (D : DotDims ⟨2, ![M, K]⟩ ⟨2, ![K, N]⟩ ⟨2, ![M, N]⟩)
    (hD : D = DotDims.plain M K N) (x : FVec Ideal ⟨2, ![M, K]⟩ .f32) (W : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul D none x W (constant (F := Ideal) ⟨2, ![M, N]⟩ .f32 0x00000000#32))
        (broadcastTo ⟨2, ![M, N]⟩ (shapeCast ⟨2, ![1, N]⟩ b hc) hb) (ix2 p q)
      = (∑ k : Fin K, x (ix2 p k) * W (ix2 k q)) + b (ix2 (0 : Fin 1) q) := by
  subst hD
  rw [addf_apply, LibPlainDot.matmul_zero_apply, broadcastTo_1b_ab_apply, shapeCast_self]

/-- Entry (p, q) of the first point set's block of features is the perceptron of row p of the block, feature q. -/
theorem pay0_apply (x0 : Vec Ideal S2048x3 .f32) (x1 : Vec Ideal S3x64 .f32) (x2 : Vec Ideal S1x64 .f32)
    (x3 : Vec Ideal S64x32 .f32) (x4 : Vec Ideal S1x32 .f32) (p : Fin 2048) (q : Fin 32) :
    Gen.k0_pay1 (F := Ideal) x0 x1 x2 x3 x4 (ix2 p q)
      = Cert.Spec.featRow (fun j => x0 (ix2 p j)) x1 x2 x3 x4 q := by
  unfold Gen.k0_pay1 Cert.Spec.featRow
  rw [shapeCast_self]
  refine (affine_apply _ rfl _ x3 x4 _ _ p q).trans ?_
  refine congrArg (· + x4 (ix2 (0 : Fin 1) q)) (Finset.sum_congr rfl fun k _ => ?_)
  refine congrArg (· * x3 (ix2 k q)) ?_
  rw [maximumf_apply, broadcast_apply]
  exact congrArg (max · _) (affine_apply _ rfl x0 x1 x2 _ _ p k)

/-- The second point set goes through the same perceptron: the same entry-by-entry reading. -/
theorem pay1_apply (x0 : Vec Ideal S2048x3 .f32) (x1 : Vec Ideal S3x64 .f32) (x2 : Vec Ideal S1x64 .f32)
    (x3 : Vec Ideal S64x32 .f32) (x4 : Vec Ideal S1x32 .f32) (p : Fin 2048) (q : Fin 32) :
    Gen.k1_pay1 (F := Ideal) x0 x1 x2 x3 x4 (ix2 p q)
      = Cert.Spec.featRow (fun j => x0 (ix2 p j)) x1 x2 x3 x4 q := by
  unfold Gen.k1_pay1 Cert.Spec.featRow
  rw [shapeCast_self]
  refine (affine_apply _ rfl _ x3 x4 _ _ p q).trans ?_
  refine congrArg (· + x4 (ix2 (0 : Fin 1) q)) (Finset.sum_congr rfl fun k _ => ?_)
  refine congrArg (· * x3 (ix2 k q)) ?_
  rw [maximumf_apply, broadcast_apply]
  exact congrArg (max · _) (affine_apply _ rfl x0 x1 x2 _ _ p k)

end Cert.KernelIdeal.Mlp

end
-- ==== Proof.KMlpArr.lean ====
/-
  The two arrays of features, from their blocks.

  Each perceptron runs over four points; point t reads rows 2048 t .. 2048 t + 2047 of its coordinate array and the
  whole weight matrices and bias rows, and writes back rows 2048 t .. 2048 t + 2047 of its array of features. What a
  point writes back is the perceptron of its block of rows, which is that block of rows of the perceptron of the whole
  coordinate array, because the perceptron works row by row. The four blocks of rows fill the 8192 rows, so after the
  last point the array of features is the perceptron of every row of the coordinate array.
-/
import proofs.«173896_j76819785056586_1_alg».proof.Proof.Gen.KernelIdeal.Frame
import proofs.«173896_j76819785056586_1_alg».proof.Proof.KMlp
import proofs.«173896_j76819785056586_1_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.MlpArr

open Cert.KernelIdeal Cert.KernelIdeal.Gen

variable (V : (c : Dev nD) → (b : Ref sig .tc) → Buf (Elt Ideal) ((c : Thread nD τ).loc b))

/-- The two zero offsets, however they are spelt. -/
theorem zero_offsets : (![0, 0] : Fin 2 → Nat) = fun _ => 0 := funext fun a => by fin_cases a <;> rfl

/-! ## The first point set -/

/-- The block indices at point t: the coordinates' block and the features' block are block t of rows, and the weights and
    biases are always their one block. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of a block of features from one entry of the array of features. The block's rows are rows
    r * 2048 + p of the coordinate array (h0), the weights and biases are the whole arrays; then entry y of the block's
    perceptron is entry i of the whole array's, when i is y moved down by r blocks of rows. -/
theorem entry0 (A0 : S8192x3.Idx → EReal) (A1 : S3x64.Idx → EReal) (A2 : S1x64.Idx → EReal) (A3 : S64x32.Idx → EReal)
    (A4 : S1x32.Idx → EReal) (x0 : Vec Ideal S2048x3 .f32) (x1 : Vec Ideal S3x64 .f32) (x2 : Vec Ideal S1x64 .f32)
    (x3 : Vec Ideal S64x32 .f32) (x4 : Vec Ideal S1x32 .f32) (r : Nat)
    (h0 : ∀ (y : S2048x3.Idx) (k : S8192x3.Idx), (k 0).val = r * 2048 + (y 0).val → (k 1).val = (y 1).val → x0 y = A0 k)
    (h1 : x1 = A1) (h2 : x2 = A2) (h3 : x3 = A3) (h4 : x4 = A4)
    (y : S2048x32.Idx) (i : S8192x32.Idx) (hi0 : (i 0).val = r * 2048 + (y 0).val) (hi1 : (i 1).val = (y 1).val) :
    k0_pay1 (F := Ideal) x0 x1 x2 x3 x4 y = Cert.Spec.feat A0 A1 A2 A3 A4 i := by
  subst h1 h2 h3 h4
  obtain ⟨p, q, rfl⟩ : ∃ (p : Fin 2048) (q : Fin 32), y = ix2 p q := ⟨y 0, y 1, eq_ix2 y⟩
  obtain ⟨P, Q, rfl⟩ : ∃ (P : Fin 8192) (Q : Fin 32), i = ix2 P Q := ⟨i 0, i 1, eq_ix2 i⟩
  have hP : P.val = r * 2048 + p.val := hi0
  obtain rfl : Q = q := Fin.ext hi1
  rw [Mlp.pay0_apply, Cert.Spec.feat_apply]
  refine congrArg (fun xr => Cert.Spec.featRow xr x1 x2 x3 x4 Q) (funext fun j => ?_)
  exact h0 (ix2 p j) (ix2 P j) hP rfl

/-- The block of coordinates at point t is rows t * 2048 + p of the coordinate array. -/
theorem block0_0 (c : Dev nD) (t : Fin cfg0.N) (y : S2048x3.Idx) (k : S8192x3.Idx)
    (hk0 : (k 0).val = t.val * 2048 + (y 0).val) (hk1 : (k 1).val = (y 1).val) :
    (iblk0 V c 0 t : Vec Ideal S2048x3 .f32) y = (V c main_v0 : S8192x3.Idx → EReal) k := by
  obtain ⟨e0, e1, -⟩ := index0 t
  unfold iblk0
  rw [View.read_apply]
  show V c main_v0 _ = V c main_v0 k
  refine congrArg (V c main_v0) ?_
  funext a
  apply Fin.ext
  match a with
  | ⟨0, _⟩ => show win0_0.index t 0 * 2048 + 1 * (y 0).val = (k 0).val; rw [e0, hk0]; omega
  | ⟨1, _⟩ => show win0_0.index t 1 * 3 + 1 * (y 1).val = (k 1).val; rw [e1, hk1]; omega

/-- The first weight matrix is fetched whole: its block at every point is the array. -/
theorem block0_1 (c : Dev nD) (t : Fin cfg0.N) :
    (iblk0 V c 1 t : Vec Ideal S3x64 .f32) = (V c main_arg2 : S3x64.Idx → EReal) := by
  obtain ⟨-, -, e0, e1, -⟩ := index0 t
  funext y
  unfold iblk0
  rw [View.read_apply]
  show V c main_arg2 _ = V c main_arg2 y
  refine congrArg (V c main_arg2) ?_
  funext a
  apply Fin.ext
  match a with
  | ⟨0, _⟩ => show win0_1.index t 0 * 3 + 1 * (y 0).val = (y 0).val; rw [e0]; omega
  | ⟨1, _⟩ => show win0_1.index t 1 * 64 + 1 * (y 1).val = (y 1).val; rw [e1]; omega

/-- The first bias row is fetched whole. -/
theorem block0_2 (c : Dev nD) (t : Fin cfg0.N) :
    (iblk0 V c 2 t : Vec Ideal S1x64 .f32) = (V c main_v6 : S1x64.Idx → EReal) := by
  obtain ⟨-, -, -, -, e0, e1, -⟩ := index0 t
  funext y
  unfold iblk0
  rw [View.read_apply]
  show V c main_v6 _ = V c main_v6 y
  refine congrArg (V c main_v6) ?_
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

/-- The second weight matrix is fetched whole. -/
theorem block0_3 (c : Dev nD) (t : Fin cfg0.N) :
    (iblk0 V c 3 t : Vec Ideal S64x32 .f32) = (V c main_arg4 : S64x32.Idx → EReal) := by
  obtain ⟨-, -, -, -, -, -, e0, e1, -⟩ := index0 t
  funext y
  unfold iblk0
  rw [View.read_apply]
  show V c main_arg4 _ = V c main_arg4 y
  refine congrArg (V c main_arg4) ?_
  funext a
  apply Fin.ext
  match a with
  | ⟨0, _⟩ => show win0_3.index t 0 * 64 + 1 * (y 0).val = (y 0).val; rw [e0]; omega
  | ⟨1, _⟩ => show win0_3.index t 1 * 32 + 1 * (y 1).val = (y 1).val; rw [e1]; omega

/-- The second bias row is fetched whole. -/
theorem block0_4 (c : Dev nD) (t : Fin cfg0.N) :
    (iblk0 V c 4 t : Vec Ideal S1x32 .f32) = (V c main_v7 : S1x32.Idx → EReal) := by
  obtain ⟨-, -, -, -, -, -, -, -, e0, e1, -⟩ := index0 t
  funext y
  unfold iblk0
  rw [View.read_apply]
  show V c main_v7 _ = V c main_v7 y
  refine congrArg (V c main_v7) ?_
  funext a
  apply Fin.ext
  match a with
  | ⟨0, _⟩ => show win0_4.index t 0 * 1 + 1 * (y 0).val = (y 0).val; rw [e0]; omega
  | ⟨1, _⟩ => show win0_4.index t 1 * 32 + 1 * (y 1).val = (y 1).val; rw [e1]; omega

/-- What point t writes back is block t of the array of features of the whole coordinate array. -/
theorem flushed0 (c : Dev nD) (t : Fin cfg0.N) :
    (dat0 (F := Ideal) V c).flushed 5 t
      = ((cfg0.win 5).blk t).view.read (Elt Ideal)
          (Cert.Spec.feat (V c main_v0) (V c main_arg2) (V c main_v6) (V c main_arg4) (V c main_v7)) := by
  show (cfg0.win 5).cut (grid0.coords t) ((dat0 V c).after 5 t) = _
  rw [after0_5]
  unfold out0_5
  rw [View.canon_unit_zero zero_offsets]
  simp only [View.ld_unit_zero (S := S2048x3) zero_offsets, View.ld_unit_zero (S := S3x64) zero_offsets,
    View.ld_unit_zero (S := S1x64) zero_offsets, View.ld_unit_zero (S := S64x32) zero_offsets,
    View.ld_unit_zero (S := S1x32) zero_offsets]
  obtain ⟨-, -, -, -, -, -, -, -, -, -, e0, e1⟩ := index0 t
  funext j
  refine entry0 (V c main_v0) (V c main_arg2) (V c main_v6) (V c main_arg4) (V c main_v7)
    (iblk0 V c 0 t) (iblk0 V c 1 t) (iblk0 V c 2 t) (iblk0 V c 3 t) (iblk0 V c 4 t) t.val
    (block0_0 V c t) (block0_1 V c t) (block0_2 V c t) (block0_3 V c t) (block0_4 V c t)
    ((cfg0.win 5).xinj (grid0.coords t) j) (((cfg0.win 5).blk t).view.emb j) ?_ ?_
  · show win0_5.index t 0 * 2048 + 1 * (j 0).val = t.val * 2048 + (j 0).val
    rw [e0]; omega
  · show win0_5.index t 1 * 32 + 1 * (j 1).val = (j 1).val
    rw [e1]; omega

/-- An entry of the array of features lies in point t's block when each of its coordinates lies in the block's range on
    that axis. -/
theorem mem_blk0 (t : Fin cfg0.N) (i : S8192x32.Idx) :
    i ∈ ((cfg0.win 5).blk t).view.set ↔
      ∀ a : Fin 2, win0_5.index t a * S2048x32.size a ≤ (i a).val
        ∧ (i a).val < win0_5.index t a * S2048x32.size a + S2048x32.size a := by
  show i ∈ ((View.whole main_v8).slice (win0_5.rect t)).set ↔ _
  rw [View.set_slice_whole, Rect.mem_set_unit]
  exact Iff.rfl

/-- Every entry of the array of features is written back by some point: row r lies in the block of point r / 2048. -/
theorem cover0 (i : S8192x32.Idx) :
    ∃ t : Fin cfg0.N, (cfg0.win 5).flush t = true ∧ i ∈ ((cfg0.win 5).blk t).view.set := by
  have hi0 : (i 0).val < 8192 := (i 0).isLt
  have hi1 : (i 1).val < 32 := (i 1).isLt
  have hN : grid0.N = 4 := N_0
  have ht : (i 0).val / 2048 < grid0.N := by rw [hN]; omega
  obtain ⟨-, -, -, -, -, -, -, -, -, -, e0, e1⟩ := index0 ⟨(i 0).val / 2048, ht⟩
  refine ⟨⟨(i 0).val / 2048, ht⟩, flush0_5 _, ?_⟩
  rw [mem_blk0]
  intro a
  match a with
  | ⟨0, _⟩ =>
    show win0_5.index ⟨(i 0).val / 2048, ht⟩ 0 * 2048 ≤ (i 0).val
      ∧ (i 0).val < win0_5.index ⟨(i 0).val / 2048, ht⟩ 0 * 2048 + 2048
    rw [e0]
    show (i 0).val / 2048 * 2048 ≤ (i 0).val ∧ (i 0).val < (i 0).val / 2048 * 2048 + 2048
    omega
  | ⟨1, _⟩ =>
    show win0_5.index ⟨(i 0).val / 2048, ht⟩ 1 * 32 ≤ (i 1).val
      ∧ (i 1).val < win0_5.index ⟨(i 0).val / 2048, ht⟩ 1 * 32 + 32
    rw [e1]
    omega

/-- After the first perceptron's four points the array of features is the perceptron of every row of the first
    coordinate array. -/
theorem arr0 (c : Dev nD) :
    (dat0 (F := Ideal) V c).arrAt 5 cfg0.N
      = Cert.Spec.feat (V c main_v0) (V c main_arg2) (V c main_v6) (V c main_arg4) (V c main_v7) :=
  (dat0 (F := Ideal) V c).arrAt_eq_of_cover 5 _ (fun t _ => flushed0 V c t) cover0

/-! ## The second point set -/

/-- The block indices at point t: the coordinates' block and the features' block are block t of rows, and the weights and
    biases are always their one block. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of a block of features from one entry of the array of features. The block's rows are rows
    r * 2048 + p of the coordinate array (h0), the weights and biases are the whole arrays; then entry y of the block's
    perceptron is entry i of the whole array's, when i is y moved down by r blocks of rows. -/
theorem entry1 (A0 : S8192x3.Idx → EReal) (A1 : S3x64.Idx → EReal) (A2 : S1x64.Idx → EReal) (A3 : S64x32.Idx → EReal)
    (A4 : S1x32.Idx → EReal) (x0 : Vec Ideal S2048x3 .f32) (x1 : Vec Ideal S3x64 .f32) (x2 : Vec Ideal S1x64 .f32)
    (x3 : Vec Ideal S64x32 .f32) (x4 : Vec Ideal S1x32 .f32) (r : Nat)
    (h0 : ∀ (y : S2048x3.Idx) (k : S8192x3.Idx), (k 0).val = r * 2048 + (y 0).val → (k 1).val = (y 1).val → x0 y = A0 k)
    (h1 : x1 = A1) (h2 : x2 = A2) (h3 : x3 = A3) (h4 : x4 = A4)
    (y : S2048x32.Idx) (i : S8192x32.Idx) (hi0 : (i 0).val = r * 2048 + (y 0).val) (hi1 : (i 1).val = (y 1).val) :
    k1_pay1 (F := Ideal) x0 x1 x2 x3 x4 y = Cert.Spec.feat A0 A1 A2 A3 A4 i := by
  subst h1 h2 h3 h4
  obtain ⟨p, q, rfl⟩ : ∃ (p : Fin 2048) (q : Fin 32), y = ix2 p q := ⟨y 0, y 1, eq_ix2 y⟩
  obtain ⟨P, Q, rfl⟩ : ∃ (P : Fin 8192) (Q : Fin 32), i = ix2 P Q := ⟨i 0, i 1, eq_ix2 i⟩
  have hP : P.val = r * 2048 + p.val := hi0
  obtain rfl : Q = q := Fin.ext hi1
  rw [Mlp.pay1_apply, Cert.Spec.feat_apply]
  refine congrArg (fun xr => Cert.Spec.featRow xr x1 x2 x3 x4 Q) (funext fun j => ?_)
  exact h0 (ix2 p j) (ix2 P j) hP rfl

/-- The block of coordinates at point t is rows t * 2048 + p of the coordinate array. -/
theorem block1_0 (c : Dev nD) (t : Fin cfg1.N) (y : S2048x3.Idx) (k : S8192x3.Idx)
    (hk0 : (k 0).val = t.val * 2048 + (y 0).val) (hk1 : (k 1).val = (y 1).val) :
    (iblk1 V c 0 t : Vec Ideal S2048x3 .f32) y = (V c main_v1 : S8192x3.Idx → EReal) k := by
  obtain ⟨e0, e1, -⟩ := index1 t
  unfold iblk1
  rw [View.read_apply]
  show V c main_v1 _ = V c main_v1 k
  refine congrArg (V c main_v1) ?_
  funext a
  apply Fin.ext
  match a with
  | ⟨0, _⟩ => show win1_0.index t 0 * 2048 + 1 * (y 0).val = (k 0).val; rw [e0, hk0]; omega
  | ⟨1, _⟩ => show win1_0.index t 1 * 3 + 1 * (y 1).val = (k 1).val; rw [e1, hk1]; omega

/-- The first weight matrix is fetched whole: its block at every point is the array. -/
theorem block1_1 (c : Dev nD) (t : Fin cfg1.N) :
    (iblk1 V c 1 t : Vec Ideal S3x64 .f32) = (V c main_arg2 : S3x64.Idx → EReal) := by
  obtain ⟨-, -, e0, e1, -⟩ := index1 t
  funext y
  unfold iblk1
  rw [View.read_apply]
  show V c main_arg2 _ = V c main_arg2 y
  refine congrArg (V c main_arg2) ?_
  funext a
  apply Fin.ext
  match a with
  | ⟨0, _⟩ => show win1_1.index t 0 * 3 + 1 * (y 0).val = (y 0).val; rw [e0]; omega
  | ⟨1, _⟩ => show win1_1.index t 1 * 64 + 1 * (y 1).val = (y 1).val; rw [e1]; omega

/-- The first bias row is fetched whole. -/
theorem block1_2 (c : Dev nD) (t : Fin cfg1.N) :
    (iblk1 V c 2 t : Vec Ideal S1x64 .f32) = (V c main_v9 : S1x64.Idx → EReal) := by
  obtain ⟨-, -, -, -, e0, e1, -⟩ := index1 t
  funext y
  unfold iblk1
  rw [View.read_apply]
  show V c main_v9 _ = V c main_v9 y
  refine congrArg (V c main_v9) ?_
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- The second weight matrix is fetched whole. -/
theorem block1_3 (c : Dev nD) (t : Fin cfg1.N) :
    (iblk1 V c 3 t : Vec Ideal S64x32 .f32) = (V c main_arg4 : S64x32.Idx → EReal) := by
  obtain ⟨-, -, -, -, -, -, e0, e1, -⟩ := index1 t
  funext y
  unfold iblk1
  rw [View.read_apply]
  show V c main_arg4 _ = V c main_arg4 y
  refine congrArg (V c main_arg4) ?_
  funext a
  apply Fin.ext
  match a with
  | ⟨0, _⟩ => show win1_3.index t 0 * 64 + 1 * (y 0).val = (y 0).val; rw [e0]; omega
  | ⟨1, _⟩ => show win1_3.index t 1 * 32 + 1 * (y 1).val = (y 1).val; rw [e1]; omega

/-- The second bias row is fetched whole. -/
theorem block1_4 (c : Dev nD) (t : Fin cfg1.N) :
    (iblk1 V c 4 t : Vec Ideal S1x32 .f32) = (V c main_v10 : S1x32.Idx → EReal) := by
  obtain ⟨-, -, -, -, -, -, -, -, e0, e1, -⟩ := index1 t
  funext y
  unfold iblk1
  rw [View.read_apply]
  show V c main_v10 _ = V c main_v10 y
  refine congrArg (V c main_v10) ?_
  funext a
  apply Fin.ext
  match a with
  | ⟨0, _⟩ => show win1_4.index t 0 * 1 + 1 * (y 0).val = (y 0).val; rw [e0]; omega
  | ⟨1, _⟩ => show win1_4.index t 1 * 32 + 1 * (y 1).val = (y 1).val; rw [e1]; omega

/-- What point t writes back is block t of the array of features of the whole coordinate array. -/
theorem flushed1 (c : Dev nD) (t : Fin cfg1.N) :
    (dat1 (F := Ideal) V c).flushed 5 t
      = ((cfg1.win 5).blk t).view.read (Elt Ideal)
          (Cert.Spec.feat (V c main_v1) (V c main_arg2) (V c main_v9) (V c main_arg4) (V c main_v10)) := by
  show (cfg1.win 5).cut (grid1.coords t) ((dat1 V c).after 5 t) = _
  rw [after1_5]
  unfold out1_5
  rw [View.canon_unit_zero zero_offsets]
  simp only [View.ld_unit_zero (S := S2048x3) zero_offsets, View.ld_unit_zero (S := S3x64) zero_offsets,
    View.ld_unit_zero (S := S1x64) zero_offsets, View.ld_unit_zero (S := S64x32) zero_offsets,
    View.ld_unit_zero (S := S1x32) zero_offsets]
  obtain ⟨-, -, -, -, -, -, -, -, -, -, e0, e1⟩ := index1 t
  funext j
  refine entry1 (V c main_v1) (V c main_arg2) (V c main_v9) (V c main_arg4) (V c main_v10)
    (iblk1 V c 0 t) (iblk1 V c 1 t) (iblk1 V c 2 t) (iblk1 V c 3 t) (iblk1 V c 4 t) t.val
    (block1_0 V c t) (block1_1 V c t) (block1_2 V c t) (block1_3 V c t) (block1_4 V c t)
    ((cfg1.win 5).xinj (grid1.coords t) j) (((cfg1.win 5).blk t).view.emb j) ?_ ?_
  · show win1_5.index t 0 * 2048 + 1 * (j 0).val = t.val * 2048 + (j 0).val
    rw [e0]; omega
  · show win1_5.index t 1 * 32 + 1 * (j 1).val = (j 1).val
    rw [e1]; omega

/-- An entry of the array of features lies in point t's block when each of its coordinates lies in the block's range on
    that axis. -/
theorem mem_blk1 (t : Fin cfg1.N) (i : S8192x32.Idx) :
    i ∈ ((cfg1.win 5).blk t).view.set ↔
      ∀ a : Fin 2, win1_5.index t a * S2048x32.size a ≤ (i a).val
        ∧ (i a).val < win1_5.index t a * S2048x32.size a + S2048x32.size a := by
  show i ∈ ((View.whole main_v11).slice (win1_5.rect t)).set ↔ _
  rw [View.set_slice_whole, Rect.mem_set_unit]
  exact Iff.rfl

/-- Every entry of the array of features is written back by some point: row r lies in the block of point r / 2048. -/
theorem cover1 (i : S8192x32.Idx) :
    ∃ t : Fin cfg1.N, (cfg1.win 5).flush t = true ∧ i ∈ ((cfg1.win 5).blk t).view.set := by
  have hi0 : (i 0).val < 8192 := (i 0).isLt
  have hi1 : (i 1).val < 32 := (i 1).isLt
  have hN : grid1.N = 4 := N_1
  have ht : (i 0).val / 2048 < grid1.N := by rw [hN]; omega
  obtain ⟨-, -, -, -, -, -, -, -, -, -, e0, e1⟩ := index1 ⟨(i 0).val / 2048, ht⟩
  refine ⟨⟨(i 0).val / 2048, ht⟩, flush1_5 _, ?_⟩
  rw [mem_blk1]
  intro a
  match a with
  | ⟨0, _⟩ =>
    show win1_5.index ⟨(i 0).val / 2048, ht⟩ 0 * 2048 ≤ (i 0).val
      ∧ (i 0).val < win1_5.index ⟨(i 0).val / 2048, ht⟩ 0 * 2048 + 2048
    rw [e0]
    show (i 0).val / 2048 * 2048 ≤ (i 0).val ∧ (i 0).val < (i 0).val / 2048 * 2048 + 2048
    omega
  | ⟨1, _⟩ =>
    show win1_5.index ⟨(i 0).val / 2048, ht⟩ 1 * 32 ≤ (i 1).val
      ∧ (i 1).val < win1_5.index ⟨(i 0).val / 2048, ht⟩ 1 * 32 + 32
    rw [e1]
    omega

/-- After the second perceptron's four points the array of features is the perceptron of every row of the second
    coordinate array. -/
theorem arr1 (c : Dev nD) :
    (dat1 (F := Ideal) V c).arrAt 5 cfg1.N
      = Cert.Spec.feat (V c main_v1) (V c main_arg2) (V c main_v9) (V c main_arg4) (V c main_v10) :=
  (dat1 (F := Ideal) V c).arrAt_eq_of_cover 5 _ (fun t _ => flushed1 V c t) cover1

end Cert.KernelIdeal.MlpArr

end
-- ==== Proof.LibDotNT.lean ====
/-
  A matrix product whose right operand is stored transposed, read at one entry of its result on the extended reals.

  The left operand is [M, K] and the right operand is [N, K]; both are contracted on their second axis and there is
  no batch axis. Entry (p, q) of the product is the sum over k of lhs (p, k) · rhs (q, k). This holds for the vector
  unit's product into a zero accumulator (the zero word denotes 0, and 0 + s = s) and for the host's `dot_general`,
  for all extents M, K, N. A record of dimension numbers is determined by its six lists of axes (its remaining
  field is a proof), so the statements are about `DotDims.transposedRhs M K N` and apply to every record that lists
  the same axes.
-/
import Idealize.ShloMosaic.PureOps.Ideal.Laws
import Idealize.ShloMosaic.Lib.ValueIdx

noncomputable section

open scoped BigOperators

namespace Cert.LibDotNT

open Idealize.ShloMosaic Idealize.ShloMosaic.ValueIdx

variable {M K N : Nat}

/-- The contraction index of the product is its one coordinate, k < K. -/
abbrev kEquiv (M K N : Nat) : (DotDims.transposedRhs M K N).contr.Idx ≃ Fin K :=
  contrEquiv1 (DotDims.transposedRhs M K N) K rfl rfl

/-- The left operand's row axis is the result's first axis: it reads the result entry's row. -/
theorem lhs_row (j : (⟨2, ![M, N]⟩ : Shape).Idx) (κ : (DotDims.transposedRhs M K N).contr.Idx) :
    ((DotDims.transposedRhs M K N).lhsIdx j κ 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column axis is the contracted one: it reads the contraction coordinate. -/
theorem lhs_col (j : (⟨2, ![M, N]⟩ : Shape).Idx) (k : Fin K) :
    ((DotDims.transposedRhs M K N).lhsIdx j ((kEquiv M K N).symm k) 1).val = k.val :=
  ((DotDims.transposedRhs M K N).lhsIdx_val_of_single rfl j _).trans
    (contrEquiv1_symm_val (DotDims.transposedRhs M K N) K rfl rfl k)

/-- The right operand's row axis is the result's second axis: it reads the result entry's column. -/
theorem rhs_row (j : (⟨2, ![M, N]⟩ : Shape).Idx) (κ : (DotDims.transposedRhs M K N).contr.Idx) :
    ((DotDims.transposedRhs M K N).rhsIdx j κ 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column axis is the contracted one. -/
theorem rhs_col (j : (⟨2, ![M, N]⟩ : Shape).Idx) (k : Fin K) :
    ((DotDims.transposedRhs M K N).rhsIdx j ((kEquiv M K N).symm k) 1).val = k.val :=
  ((DotDims.transposedRhs M K N).rhsIdx_val_of_single rfl j _).trans
    (contrEquiv1_symm_val (DotDims.transposedRhs M K N) K rfl rfl k)

/-- At result entry (p, q) and contraction coordinate k the left operand is read at (p, k) -/
theorem lhsIdx_nt (p : Fin M) (q : Fin N) (k : Fin K) :
    (DotDims.transposedRhs M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (q, k). -/
theorem rhsIdx_nt (p : Fin M) (q : Fin N) (k : Fin K) :
    (DotDims.transposedRhs M K N).rhsIdx (ix2 p q) ((kEquiv M K N).symm k) = ix2 q k :=
  funext fun a => Fin.ext (by
    match a with
    | ⟨0, _⟩ => exact rhs_row (ix2 p q) _
    | ⟨1, _⟩ => exact rhs_col (ix2 p q) k)

/-- The sum over the contraction index of the two operands' entries is the sum over k < K of lhs (p, k) · rhs (q, k). -/
theorem sum_contr {φ₁ φ₂ : FTy} (lhs : FVec Ideal ⟨2, ![M, K]⟩ φ₁) (rhs : FVec Ideal ⟨2, ![N, K]⟩ φ₂)
    (p : Fin M) (q : Fin N) :
    (∑ κ : (DotDims.transposedRhs M K N).contr.Idx,
        lhs ((DotDims.transposedRhs M K N).lhsIdx (ix2 p q) κ) * rhs ((DotDims.transposedRhs M K N).rhsIdx (ix2 p q) κ) : EReal)
      = ∑ k : Fin K, lhs (ix2 p k) * rhs (ix2 q k) := by
  rw [← Equiv.sum_comp (kEquiv M K N).symm]
  exact Finset.sum_congr rfl fun k _ =>
    congrArg₂ (fun a b => (lhs a * rhs b : EReal)) (lhsIdx_nt p q k) (rhsIdx_nt p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant (F := Ideal) ⟨2, ![M, N]⟩ .f32 0x00000000#32) (ix2 p q)
      = ∑ k : Fin K, lhs (ix2 p k) * rhs (ix2 q k) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_contr lhs rhs p q

end Cert.LibDotNT

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.KPair.lean ====
/-
  One entry of a block of the pairwise masked cosine.

  A block is computed from 1024 feature vectors u_p (the rows of the first operand), 1024 feature vectors v_q (the
  rows of the second operand) and their class labels a_p, b_q. Entry (p, q) of the block is

      cos(u_p, v_q) = (sum_k u_p(k) * v_q(k)) / max(|u_p| * |v_q|, eps)      when a_p = b_q,     and 0 otherwise,

  where |u| = sqrt(sum_k u(k) * u(k)). The program forms the numerators as one matrix product with the second operand
  transposed, the norms as square roots of row sums, and lays the norms and the labels out over the block by repeating
  a column along its rows (the first operand's quantities, constant along a row of the block) and by repeating a
  transposed column along the columns (the second operand's quantities, constant along a column of the block).
  Each of these layout steps is read at one entry below; the entry of the block is then assembled from them, the
  remaining operations acting entry by entry.
-/
import proofs.«173896_j76819785056586_1_alg».proof.Proof.Gen.KernelIdeal.Skeleton
import proofs.«173896_j76819785056586_1_alg».proof.Proof.Spec
import proofs.«173896_j76819785056586_1_alg».proof.Proof.LibDotNT
import proofs.«173896_j76819785056586_1_alg».proof.Proof.LibColumn
import Idealize.ShloMosaic.Lib.ValueLayout
import Idealize.ShloMosaic.Lib.Pipeline.Value

noncomputable section

open scoped BigOperators

namespace Cert.KernelIdeal.Pair

open Idealize.ShloMosaic Idealize.ShloMosaic.ValueIdx Idealize.SL.Sem Cert.KernelIdeal

/-! ## The two layouts of a column over the block -/

section Layout
variable {α : Type}

/-- A column [1024, 1] repeated along the rows of the block: entry (p, q) is the column's entry p. -/
theorem alongRow_apply (v : S1024x1.Idx → α) (h : S1024x1.Broadcasts S1024x1024) (p q : Fin 1024) :
    broadcastTo S1024x1024 v h (ix2 p q) = v (ix2 p (0 : Fin 1)) :=
  LibColumn.broadcastTo_a1_ab_apply v h p q

/-- A column [1024, 1] transposed to a row [1, 1024] and the row repeated down the block: entry (p, q) is the column's
    entry q. The transposed column at (0, q) is the column at (q, 0), and the repeated row at (p, q) is the row at (0, q). -/
theorem alongCol_apply (v : S1024x1.Idx → α) (ht : S1024x1.Transposes [1, 0] S1x1024) (hb : S1x1024.Broadcasts S1024x1024)
    (p q : Fin 1024) :
    broadcastTo S1024x1024 (transpose S1x1024 [1, 0] v ht) hb (ix2 p q) = v (ix2 q (0 : Fin 1)) :=
  (broadcastTo_1b_ab_apply _ hb p q).trans (transpose_ix2_apply v ht (0 : Fin 1) q)

end Layout

/-! ## The numerator and the norms -/

/-- The block product's record of dimension numbers lists the axes of a product with the right operand transposed. -/
theorem dot_eq : dot_S1024x32_S1024x32_S1024x1024_1_1_0_0_n_n = DotDims.transposedRhs 1024 32 1024 := rfl

/-- The matrix product of the two operands, the second transposed, into the zero block: entry (p, q) is the inner
    product of row p of the first with row q of the second. Narrowing an operand's format changes no value on the
    extended reals. -/
theorem inner_apply (x0 x1 : FVec Ideal S1024x32 .f32) (hb : FTy.bits .bf16 < FTy.bits .f32) (p q : Fin 1024) :
    matmul dot_S1024x32_S1024x32_S1024x1024_1_1_0_0_n_n none (truncf .bf16 x0 hb) (truncf .bf16 x1 hb)
        (constant S1024x1024 .f32 0x00000000#32) (ix2 p q)
      = ∑ k : Fin 32, x0 (ix2 p k) * x1 (ix2 q k) :=
  LibDotNT.matmul_zero_apply (M := 1024) (K := 32) (N := 1024) none (truncf .bf16 x0 hb) (truncf .bf16 x1 hb) p q

/-- The column of Euclidean norms of the rows of x: the square root of the row sums of x * x, the vector of row sums
    made a column. Entry (p, 0) is sqrt(sum_k x(p, k) * x(p, k)). -/
theorem norm_apply (x : FVec Ideal S1024x32 .f32) (hr : S1024x32.Reduces [1] S1024) (hφ : FKind.Formats .f32)
    (hacc : (0x00000000#32 : BitVec 32) = FKind.add.neutral .f32 hφ) (hc : S1024.ShapeCasts S1024x1) (p : Fin 1024) (u : Fin 1) :
    sqrt (shapeCast S1024x1 (multiReduction (F := Ideal) .add [1] S1024 (mulf x x) 0x00000000#32 hr hφ hacc) hc) (ix2 p u)
      = Ideal.sqrt (∑ k : Fin 32, x (ix2 p k) * x (ix2 p k)) :=
  congrArg Ideal.sqrt ((LibColumn.shapeCast_a_a1_apply _ hc p u).trans (LibColumn.rowSum_apply (mulf x x) hr hφ hacc p))

/-! ## One entry of the block -/

/-- Entry (p, q) of the block computed from the feature blocks x0, x1 and the label columns x2, x3 is the masked
    cosine of row p of x0 and row q of x1 under the labels x2(p), x3(q). -/
theorem pay2_apply (x0 x1 : Vec Ideal S1024x32 .f32) (x2 x3 : Vec Ideal S1024x1 .i32) (p q : Fin 1024) :
    Gen.k2_pay1 (F := Ideal) x0 x1 x2 x3 (ix2 p q)
      = Cert.Spec.pairAt (fun k => x0 (ix2 p k)) (fun k => x1 (ix2 q k)) (x2 (ix2 p (0 : Fin 1))) (x3 (ix2 q (0 : Fin 1))) := by
  unfold Gen.k2_pay1 Cert.Spec.pairAt Cert.Spec.cosAt
  -- a cast of an array to its own shape is the array
  simp only [shapeCast_self]
  -- the selection, the comparison, the quotient, the maximum and the product act entry by entry
  refine congrArg₂ (fun c d => Scalar.select c d Cert.Spec.zeroW) ?_ ?_
  · -- the labels: x2 is constant along a row of the block, x3 along a column
    exact congrArg₂ (IntOp.cmpi .eq) (alongRow_apply x2 _ p q) (alongCol_apply x3 _ _ p q)
  · refine congrArg₂ Ideal.div (inner_apply x0 x1 _ p q) (congrArg (fun t => max t Cert.Spec.epsW) (congrArg₂ (· * ·) ?_ ?_))
    · -- |u_p|, constant along row p
      exact (alongRow_apply _ _ p q).trans (norm_apply x0 _ _ _ _ p 0)
    · -- |v_q|, constant along column q
      exact (alongCol_apply _ _ _ p q).trans (norm_apply x1 _ _ _ _ q 0)

end Cert.KernelIdeal.Pair

end
-- ==== Proof.KPairArr.lean ====
/-
  The result array of the pairwise masked cosine, assembled from its blocks.

  The two sets have 8192 rows each, cut into 8 blocks of 1024 rows. The grid has 64 points, the pairs (i, j) of a
  block of the first set and a block of the second, point t being (t / 8, t % 8). Point (i, j) reads the features and
  labels of rows 1024 i .. 1024 i + 1023 of the first set and of rows 1024 j .. 1024 j + 1023 of the second, and
  writes block (i, j) of the [8192, 8192] result: entry (r, s) of that block is the masked cosine of row 1024 i + r
  of the first set and row 1024 j + s of the second. So every point writes its block of ONE function of the whole
  arrays, the masked cosine of every pair of rows; the 64 blocks fill the result, entry (p, q) lying in block
  (p / 1024, q / 1024); hence after the last point the result array is that function.
-/
import proofs.«173896_j76819785056586_1_alg».proof.Proof.Gen.KernelIdeal.Frame
import proofs.«173896_j76819785056586_1_alg».proof.Proof.KPair
import proofs.«173896_j76819785056586_1_alg».proof.Proof.Spec
import Idealize.ShloMosaic.Lib.Pipeline.Value

noncomputable section

open scoped BigOperators

namespace Cert.KernelIdeal.PairArr

open Idealize.ShloMosaic Idealize.ShloMosaic.TcCoe Idealize.ShloMosaic.ValueIdx Idealize.SL.Sem Cert.KernelIdeal
open Idealize.ShloMosaic.Pipeline (Dat)

-- the contents of every array when the 64 points start
variable (V : (c : Dev nD) → (b : Ref sig .tc) → Buf (Elt Ideal) ((c : Thread nD τ).loc b))

/-! ## The grid -/

theorem hz : (![0, 0] : Fin 2 → Nat) = fun _ => 0 := funext fun a => by fin_cases a <;> rfl

/-- The 64 points of the grid are the pairs (i, j) of a block row i < 8 of the first set and a block row j < 8 of the
    second, point t being (t / 8, t % 8). The first set's features and labels are read at block i, the second set's
    at block j, and the result is written at block (i, j). Decided over the 64 points. -/
theorem idx_facts : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val % 8 ∧ win2_3.index t (1 : Fin 2) = 0
    ∧ win2_4.index t (0 : Fin 2) = t.val / 8 ∧ win2_4.index t (1 : Fin 2) = t.val % 8 :=
  (by decide +kernel : ∀ t : Fin grid2.N, _)

/-- Every block (i, j) of the result is some point's. -/
theorem idx_onto : ∀ (q0 : Fin 8) (q1 : Fin 8), ∃ t : Fin cfg2.N, win2_4.index t = ![q0.val, q1.val] :=
  (by decide +kernel : ∀ (q0 : Fin 8) (q1 : Fin 8), ∃ t : Fin grid2.N, win2_4.index t = ![q0.val, q1.val])

/-! ## The blocks the points read -/

/-- The first set's feature block at point t is rows 1024 (t / 8) + r, r < 1024, of the feature array. -/
theorem feat1_blk (c : Dev nD) (t : Fin cfg2.N) (x : S1024x32.Idx) (k : S8192x32.Idx)
    (hk0 : (k 0).val = 1024 * (t.val / 8) + (x 0).val) (hk1 : (k 1).val = (x 1).val) :
    (Gen.iblk2 V c 0 t : Vec Ideal S1024x32 .f32) x = (V c main_v8 : S8192x32.Idx → Elt Ideal .f32) k := by
  obtain ⟨e0, e1, -⟩ := idx_facts t
  unfold Gen.iblk2
  rw [View.read_apply]
  show V c main_v8 _ = V c main_v8 _
  refine congrArg (V c main_v8) (funext fun a => Fin.ext ?_)
  match a with
  | ⟨0, _⟩ => show win2_0.index t 0 * 1024 + 1 * (x 0).val = (k 0).val; rw [e0, hk0]; omega
  | ⟨1, _⟩ => show win2_0.index t 1 * 32 + 1 * (x 1).val = (k 1).val; rw [e1, hk1]; omega

/-- The second set's feature block at point t is rows 1024 (t % 8) + r of its feature array. -/
theorem feat2_blk (c : Dev nD) (t : Fin cfg2.N) (x : S1024x32.Idx) (k : S8192x32.Idx)
    (hk0 : (k 0).val = 1024 * (t.val % 8) + (x 0).val) (hk1 : (k 1).val = (x 1).val) :
    (Gen.iblk2 V c 1 t : Vec Ideal S1024x32 .f32) x = (V c main_v11 : S8192x32.Idx → Elt Ideal .f32) k := by
  obtain ⟨-, -, e0, e1, -⟩ := idx_facts t
  unfold Gen.iblk2
  rw [View.read_apply]
  show V c main_v11 _ = V c main_v11 _
  refine congrArg (V c main_v11) (funext fun a => Fin.ext ?_)
  match a with
  | ⟨0, _⟩ => show win2_1.index t 0 * 1024 + 1 * (x 0).val = (k 0).val; rw [e0, hk0]; omega
  | ⟨1, _⟩ => show win2_1.index t 1 * 32 + 1 * (x 1).val = (k 1).val; rw [e1, hk1]; omega

/-- The first set's label block at point t is rows 1024 (t / 8) + r of its label column. -/
theorem lab1_blk (c : Dev nD) (t : Fin cfg2.N) (x : S1024x1.Idx) (k : S8192x1.Idx)
    (hk0 : (k 0).val = 1024 * (t.val / 8) + (x 0).val) (hk1 : (k 1).val = (x 1).val) :
    (Gen.iblk2 V c 2 t : Vec Ideal S1024x1 .i32) x = (V c main_v3 : S8192x1.Idx → Elt Ideal .i32) k := by
  obtain ⟨-, -, -, -, e0, e1, -⟩ := idx_facts t
  unfold Gen.iblk2
  rw [View.read_apply]
  show V c main_v3 _ = V c main_v3 _
  refine congrArg (V c main_v3) (funext fun a => Fin.ext ?_)
  match a with
  | ⟨0, _⟩ => show win2_2.index t 0 * 1024 + 1 * (x 0).val = (k 0).val; rw [e0, hk0]; omega
  | ⟨1, _⟩ => show win2_2.index t 1 * 1 + 1 * (x 1).val = (k 1).val; rw [e1, hk1]; omega

/-- The second set's label block at point t is rows 1024 (t % 8) + r of its label column. -/
theorem lab2_blk (c : Dev nD) (t : Fin cfg2.N) (x : S1024x1.Idx) (k : S8192x1.Idx)
    (hk0 : (k 0).val = 1024 * (t.val % 8) + (x 0).val) (hk1 : (k 1).val = (x 1).val) :
    (Gen.iblk2 V c 3 t : Vec Ideal S1024x1 .i32) x = (V c main_v5 : S8192x1.Idx → Elt Ideal .i32) k := by
  obtain ⟨-, -, -, -, -, -, e0, e1, -⟩ := idx_facts t
  unfold Gen.iblk2
  rw [View.read_apply]
  show V c main_v5 _ = V c main_v5 _
  refine congrArg (V c main_v5) (funext fun a => Fin.ext ?_)
  match a with
  | ⟨0, _⟩ => show win2_3.index t 0 * 1024 + 1 * (x 0).val = (k 0).val; rw [e0, hk0]; omega
  | ⟨1, _⟩ => show win2_3.index t 1 * 1 + 1 * (x 1).val = (k 1).val; rw [e1, hk1]; omega

/-! ## What a point writes back -/

/-- The masked cosine depends on its two vectors and two labels only. -/
theorem pairAt_congr {u u' v v' : Fin 32 → EReal} {a a' b b' : BitVec 32} (hu : u = u') (hv : v = v') (ha : a = a')
    (hb : b = b') : Cert.Spec.pairAt u v a b = Cert.Spec.pairAt u' v' a' b' := by
  subst hu hv ha hb; rfl

/-- The whole result: every pair of rows of the two feature arrays under their labels. -/
abbrev G (c : Dev nD) : S8192x8192.Idx → Elt Ideal .f32 :=
  Cert.Spec.pair (V c main_v8) (V c main_v11) (V c main_v3) (V c main_v5)

/-- Point t = 8 i + j writes back block (i, j) of the whole result: entry (r, s) of its block is the masked cosine
    of row r of the first set's block i and row s of the second set's block j, that is of rows 1024 i + r and
    1024 j + s of the two arrays, which is entry (1024 i + r, 1024 j + s) of the whole result. -/
theorem flushed_eq (c : Dev nD) (t : Fin cfg2.N) :
    (Gen.dat2 (F := Ideal) V c).flushed 4 t = ((cfg2.win 4).blk t).view.read (Elt Ideal) (G V c) := by
  show (cfg2.win 4).cut (grid2.coords t) ((Gen.dat2 V c).after 4 t) = _
  rw [Gen.after2_4]
  unfold Gen.out2_4
  rw [View.canon_unit_zero hz]
  simp only [View.ld_unit_zero (S := S1024x32) hz, View.ld_unit_zero (S := S1024x1) hz]
  obtain ⟨-, -, -, -, -, -, -, -, e0, e1⟩ := idx_facts t
  funext y
  obtain ⟨p, q, rfl⟩ : ∃ p q : Fin 1024, y = ix2 p q := ⟨y 0, y 1, eq_ix2 (n0 := 1024) (n1 := 1024) y⟩
  show Gen.k2_pay1 (Gen.iblk2 V c 0 t) (Gen.iblk2 V c 1 t) (Gen.iblk2 V c 2 t) (Gen.iblk2 V c 3 t) (ix2 p q)
    = G V c (((cfg2.win 4).blk t).view.emb (ix2 p q))
  rw [Pair.pay2_apply]
  have h0 : ((((cfg2.win 4).blk t).view.emb (ix2 p q)) 0).val = 1024 * (t.val / 8) + p.val := by
    show win2_4.index t 0 * 1024 + 1 * p.val = _; rw [e0]; omega
  have h1 : ((((cfg2.win 4).blk t).view.emb (ix2 p q)) 1).val = 1024 * (t.val % 8) + q.val := by
    show win2_4.index t 1 * 1024 + 1 * q.val = _; rw [e1]; omega
  exact pairAt_congr
    (funext fun k => feat1_blk V c t _ _ h0 rfl)
    (funext fun k => feat2_blk V c t _ _ h1 rfl)
    (lab1_blk V c t _ _ h0 rfl)
    (lab2_blk V c t _ _ h1 rfl)

/-! ## The blocks fill the result -/

/-- An entry of the result is in point t's block iff each coordinate is in the block's range on its axis. -/
theorem mem_blk (t : Fin cfg2.N) (i : S8192x8192.Idx) :
    i ∈ ((cfg2.win 4).blk t).view.set ↔ ∀ a : Fin 2, win2_4.index t a * S1024x1024.size a ≤ (i a).val
      ∧ (i a).val < win2_4.index t a * S1024x1024.size a + S1024x1024.size a := by
  show i ∈ ((View.whole main_v12).slice (win2_4.rect t)).set ↔ _
  rw [View.set_slice_whole, Rect.mem_set_unit]
  exact Iff.rfl

/-- Entry (r, s) of the result lies in block (r / 1024, s / 1024), which is some point's, and every point writes its
    block back. -/
theorem cover (i : S8192x8192.Idx) :
    ∃ t : Fin cfg2.N, (cfg2.win 4).flush t = true ∧ i ∈ ((cfg2.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win2_4.index t (0 : Fin 2) = (i 0).val / 1024 := congrFun ht 0
  have q1 : win2_4.index t (1 : Fin 2) = (i 1).val / 1024 := congrFun ht 1
  refine ⟨t, Gen.flush2_4 t, ?_⟩
  rw [mem_blk]
  intro a
  match a with
  | ⟨0, _⟩ =>
    show win2_4.index t (0 : Fin 2) * 1024 ≤ (i 0).val ∧ (i 0).val < win2_4.index t (0 : Fin 2) * 1024 + 1024
    omega
  | ⟨1, _⟩ =>
    show win2_4.index t (1 : Fin 2) * 1024 ≤ (i 1).val ∧ (i 1).val < win2_4.index t (1 : Fin 2) * 1024 + 1024
    omega

/-! ## The array after the run -/

/-- After the 64 points the result array holds, at every entry (p, q), the masked cosine of row p of the first
    feature array and row q of the second under their labels: each point writes its block of that function, and the
    blocks fill the array. -/
theorem arr2 (c : Dev nD) : (Gen.dat2 (F := Ideal) V c).arrAt 4 cfg2.N
    = Cert.Spec.pair (V c main_v8) (V c main_v11) (V c main_v3) (V c main_v5) :=
  (Gen.dat2 (F := Ideal) V c).arrAt_eq_of_cover 4 (G V c) (fun t _ => flushed_eq V c t) cover

end Cert.KernelIdeal.PairArr

end
-- ==== Proof.KValue.lean ====
/-
  The result array of the idealized kernel program as one function of the six argument arrays.

  The result buffer after the run is the last call's output array. That array is the pairwise stage applied to the
  four arrays the last call reads: the two feature arrays and the two label columns. Each feature array is the
  perceptron applied to the arrays its call reads: the coordinate columns of a point set, the two weight matrices
  and the two bias rows. Substituting what each call reads, traced back to the launch memory, gives the
  specification's function of the arguments.
-/
import proofs.«173896_j76819785056586_1_alg».proof.Proof.Gen.KernelIdeal.Frame
import proofs.«173896_j76819785056586_1_alg».proof.Proof.KHost
import proofs.«173896_j76819785056586_1_alg».proof.Proof.KCols
import proofs.«173896_j76819785056586_1_alg».proof.Proof.KMlpArr
import proofs.«173896_j76819785056586_1_alg».proof.Proof.KPairArr
import proofs.«173896_j76819785056586_1_alg».proof.Proof.Spec

set_option maxRecDepth 16384

noncomputable section

namespace Cert.KernelIdeal.Value

open Cert.KernelIdeal.MlpArr Cert.KernelIdeal.PairArr

open Cert.KernelIdeal Cert.KernelIdeal.Gen Cert.KernelIdeal.Host
open Idealize.ShloMosaic Idealize.ShloMosaic.TcCoe Idealize.SL.Sem

variable (m : (ℓ : Loc nD τ sig) → Buf (Elt Ideal) ℓ) (ρ : Dev nD → PrngReg)

/-- The features the first call leaves: the perceptron on the coordinate columns of the first point set. -/
theorem features1  (c : Dev nD) : (dat0 (V1 m ρ) c).arrAt 5 cfg0.N
    = Cert.Spec.feat (Cert.Spec.coords (m ((c : Thread nD τ).loc main_arg0))) (m ((c : Thread nD τ).loc main_arg2))
        (Cert.Spec.asRow (m ((c : Thread nD τ).loc main_arg3))) (m ((c : Thread nD τ).loc main_arg4))
        (Cert.Spec.asRow (m ((c : Thread nD τ).loc main_arg5))) := by
  rw [arr0 (V1 m ρ) c]
  show Cert.Spec.feat (W1 m ρ c (Proc.devRef .tc main_v0)) (W1 m ρ c (Proc.devRef .tc main_arg2)) (W1 m ρ c (Proc.devRef .tc main_v6))
      (W1 m ρ c (Proc.devRef .tc main_arg4)) (W1 m ρ c (Proc.devRef .tc main_v7)) = _
  rw [W1_v0, W1_arg2, W1_v6, W1_arg4, W1_v7, Cert.Spec.slice_coords, Cert.Spec.reshape_asRow, Cert.Spec.reshape_asRow]

/-- The features the second call leaves: the same perceptron on the second point set. -/
theorem features2  (c : Dev nD) : (dat1 (V3 m ρ) c).arrAt 5 cfg1.N
    = Cert.Spec.feat (Cert.Spec.coords (m ((c : Thread nD τ).loc main_arg1))) (m ((c : Thread nD τ).loc main_arg2))
        (Cert.Spec.asRow (m ((c : Thread nD τ).loc main_arg3))) (m ((c : Thread nD τ).loc main_arg4))
        (Cert.Spec.asRow (m ((c : Thread nD τ).loc main_arg5))) := by
  rw [arr1 (V3 m ρ) c, in1_x, in1_W1, in1_b1, in1_W2, in1_b2, Cert.Spec.slice_coords, Cert.Spec.reshape_asRow, Cert.Spec.reshape_asRow]

/-- The result buffer after the run is the specification's function of the six argument arrays. -/
theorem result_eq  (c : Dev nD) : W5 m ρ c (Proc.devRef .tc main_v12)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [result_arr, arr2 (V4 m ρ) c, in2_f1, in2_f2, in2_c1, in2_c2, features1 m ρ  c, features2 m ρ  c, Cert.Spec.slice_labels, Cert.Spec.slice_labels]
  rfl

end Cert.KernelIdeal.Value

end
-- ==== Proof.RefFeat.lean ====
/-
  The perceptron stage of the reference, read at one entry.

  Each of the two point sets goes through the same chain: the first three columns of the array are multiplied by
  W1 (a sum over the three coordinates), the bias b1 is added after being repeated along the rows, the maximum
  with zero is taken, the result is multiplied by W2 (a sum over the 64 hidden units), and the bias b2 is added
  after being repeated along the rows. At row p and feature q this is the specification's perceptron on row p of
  the coordinates: the only work is to follow the indices of the slice, of the two contractions and of the two
  repetitions, each of which reads its operand at a composed index that is (p, j), (j, k), (k), (k, q) or (q).
-/
import proofs.«173896_j76819785056586_1_alg».proof.Proof.Gen.ReferenceIdeal.Read
import proofs.«173896_j76819785056586_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The features of the first point set at (p, q): the perceptron on the three coordinates of row p. -/
theorem feat_first (x0 : S8192x4.Idx → EReal) (W1 : S3x64.Idx → EReal) (b1 : S64.Idx → EReal)
    (W2 : S64x32.Idx → EReal) (b2 : S32.Idx → EReal) (p : Fin 8192) (q : Fin 32) :
    val_main_v9 (F := Ideal) x0 W1 b1 W2 b2 (ix2 p q)
      = Cert.Spec.featRow (fun j => x0 (ix2 p (Fin.castLE (by decide : 3 ≤ 4) j))) W1 (Cert.Spec.asRow b1) W2
          (Cert.Spec.asRow b2) q := by
  -- coordinate j of row p, read through the slice and the two contractions
  have ex : ∀ (k : Fin 64) (j : Fin 3),
      idx_main_v0 (lidx_main_v1 (lidx_main_v6 (ix2 p q) k) j) = ix2 p (Fin.castLE (by decide : 3 ≤ 4) j) :=
    fun k j => funext fun a => Fin.ext (by match a with | ⟨0, _⟩ => rfl | ⟨1, _⟩ => rfl)
  -- entry (j, k) of W1
  have ew1 : ∀ (k : Fin 64) (j : Fin 3), ridx_main_v1 (lidx_main_v6 (ix2 p q) k) j = ix2 j k :=
    fun k j => funext fun a => Fin.ext (by match a with | ⟨0, _⟩ => rfl | ⟨1, _⟩ => rfl)
  -- entry k of b1, read through the two repetitions
  have eb1 : ∀ (k : Fin 64), idx_main_v2 (idx_main_v3 (lidx_main_v6 (ix2 p q) k)) = ix1 k :=
    fun k => funext fun a => Fin.ext (by match a with | ⟨0, _⟩ => rfl)
  -- entry (k, q) of W2
  have ew2 : ∀ (k : Fin 64), ridx_main_v6 (ix2 p q) k = ix2 k q :=
    fun k => funext fun a => Fin.ext (by match a with | ⟨0, _⟩ => rfl | ⟨1, _⟩ => rfl)
  -- entry q of b2, read through the two repetitions
  have eb2 : idx_main_v7 (idx_main_v8 (ix2 p q)) = ix1 q :=
    funext fun a => Fin.ext (by match a with | ⟨0, _⟩ => rfl)
  rw [val_main_v9_apply, val_main_v6_apply, val_main_v8_apply, val_main_v7_apply]
  simp only [val_main_v5_apply, val_main_v4_apply, val_main_v1_apply, val_main_v0_apply, val_main_v3_apply,
    val_main_v2_apply, val_main_call0_v0_apply, val_main_call0_cst_apply, ex, ew1, eb1, ew2, eb2]
  -- what is left is the perceptron's formula, with the sum, maximum and zero of the extended reals
  rfl

/-- The features of the second point set at (p, q): the same chain on the second array. -/
theorem feat_second (x1 : S8192x4.Idx → EReal) (W1 : S3x64.Idx → EReal) (b1 : S64.Idx → EReal)
    (W2 : S64x32.Idx → EReal) (b2 : S32.Idx → EReal) (p : Fin 8192) (q : Fin 32) :
    val_main_v19 (F := Ideal) x1 W1 b1 W2 b2 (ix2 p q)
      = Cert.Spec.featRow (fun j => x1 (ix2 p (Fin.castLE (by decide : 3 ≤ 4) j))) W1 (Cert.Spec.asRow b1) W2
          (Cert.Spec.asRow b2) q := by
  have ex : ∀ (k : Fin 64) (j : Fin 3),
      idx_main_v10 (lidx_main_v11 (lidx_main_v16 (ix2 p q) k) j) = ix2 p (Fin.castLE (by decide : 3 ≤ 4) j) :=
    fun k j => funext fun a => Fin.ext (by match a with | ⟨0, _⟩ => rfl | ⟨1, _⟩ => rfl)
  have ew1 : ∀ (k : Fin 64) (j : Fin 3), ridx_main_v11 (lidx_main_v16 (ix2 p q) k) j = ix2 j k :=
    fun k j => funext fun a => Fin.ext (by match a with | ⟨0, _⟩ => rfl | ⟨1, _⟩ => rfl)
  have eb1 : ∀ (k : Fin 64), idx_main_v12 (idx_main_v13 (lidx_main_v16 (ix2 p q) k)) = ix1 k :=
    fun k => funext fun a => Fin.ext (by match a with | ⟨0, _⟩ => rfl)
  have ew2 : ∀ (k : Fin 64), ridx_main_v16 (ix2 p q) k = ix2 k q :=
    fun k => funext fun a => Fin.ext (by match a with | ⟨0, _⟩ => rfl | ⟨1, _⟩ => rfl)
  have eb2 : idx_main_v17 (idx_main_v18 (ix2 p q)) = ix1 q :=
    funext fun a => Fin.ext (by match a with | ⟨0, _⟩ => rfl)
  rw [val_main_v19_apply, val_main_v16_apply, val_main_v18_apply, val_main_v17_apply]
  simp only [val_main_v15_apply, val_main_v14_apply, val_main_v11_apply, val_main_v10_apply, val_main_v13_apply,
    val_main_v12_apply, val_main_call1_v0_apply, val_main_call1_cst_apply, ex, ew1, eb1, ew2, eb2]
  rfl

end Cert.ReferenceIdeal.RefValue

end
-- ==== Proof.RefValue.lean ====
/-
  The reference computes the specification's function of its six arguments.

  After the two perceptron stages the reference forms, for rows p of the first set and q of the second: the inner
  product of the two feature vectors (a contraction over the 32 features); the Euclidean norm of each, the square
  root of the sum of squares taken from the zero word; the product of the two norms, each first repeated along the
  other axis, bounded below by the constant nearest 1e-8; and the quotient. The class labels are the fourth column
  converted to integers, compared for equality on an array with a trailing axis of extent one, which is then folded
  away by a conjunction that starts from "true". The comparison bit is converted to a float (0 or 1) and multiplied
  into the quotient.

  Two small facts carry the last two steps. A conjunction over an axis of extent one, started from the bit 1, is
  the one bit it meets. And multiplying an extended real x by the float value of a bit b is choosing between x and
  zero: 1 * x = x, and 0 * x = 0 for every extended real x, the two infinities included.
-/
import proofs.«173896_j76819785056586_1_alg».proof.Proof.RefFeat

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The two norms and the quotient -/

/-- The norm of row p of the first feature array: the square root of the sum of the squares of its 32 entries. -/
theorem norm_first (x0 : S8192x4.Idx → EReal) (W1 : S3x64.Idx → EReal) (b1 : S64.Idx → EReal)
    (W2 : S64x32.Idx → EReal) (b2 : S32.Idx → EReal) (p : Fin 8192) :
    val_main_v21 (F := Ideal) x0 W1 b1 W2 b2 (ix1 p)
      = Ideal.sqrt (∑ k : Fin 32, val_main_v9 (F := Ideal) x0 W1 b1 W2 b2 (ix2 p k)
          * val_main_v9 (F := Ideal) x0 W1 b1 W2 b2 (ix2 p k)) := by
  have e : ∀ k : Fin 32, idx_main_call2_v1 (ix1 p) k = ix2 p k :=
    fun k => funext fun a => Fin.ext (by match a with | ⟨0, _⟩ => rfl | ⟨1, _⟩ => rfl)
  rw [val_main_v21_apply, val_main_call2_v1_apply, val_main_call2_cst_apply]
  -- the sum starts from the zero word, which is 0
  simp only [val_main_call2_v0_apply, e, Ideal.hostUnary_sqrt_def, Ideal.ofBits_def, Ideal.ofBits_zero_f32, zero_add,
    Ideal.mulf_def]

/-- The norm of row q of the second feature array. -/
theorem norm_second (x1 : S8192x4.Idx → EReal) (W1 : S3x64.Idx → EReal) (b1 : S64.Idx → EReal)
    (W2 : S64x32.Idx → EReal) (b2 : S32.Idx → EReal) (q : Fin 8192) :
    val_main_v22 (F := Ideal) x1 W1 b1 W2 b2 (ix1 q)
      = Ideal.sqrt (∑ k : Fin 32, val_main_v19 (F := Ideal) x1 W1 b1 W2 b2 (ix2 q k)
          * val_main_v19 (F := Ideal) x1 W1 b1 W2 b2 (ix2 q k)) := by
  have e : ∀ k : Fin 32, idx_main_call3_v1 (ix1 q) k = ix2 q k :=
    fun k => funext fun a => Fin.ext (by match a with | ⟨0, _⟩ => rfl | ⟨1, _⟩ => rfl)
  rw [val_main_v22_apply, val_main_call3_v1_apply, val_main_call3_cst_apply]
  simp only [val_main_call3_v0_apply, e, Ideal.hostUnary_sqrt_def, Ideal.ofBits_def, Ideal.ofBits_zero_f32, zero_add,
    Ideal.mulf_def]

/-- The quotient at (p, q): the inner product of row p of the first feature array and row q of the second, over
    the product of their norms bounded below by the constant. -/
theorem quotient_at (x0 x1 : S8192x4.Idx → EReal) (W1 : S3x64.Idx → EReal) (b1 : S64.Idx → EReal)
    (W2 : S64x32.Idx → EReal) (b2 : S32.Idx → EReal) (p q : Fin 8192) :
    val_main_v30 (F := Ideal) x0 x1 W1 b1 W2 b2 (ix2 p q)
      = Ideal.div (∑ k : Fin 32, val_main_v9 (F := Ideal) x0 W1 b1 W2 b2 (ix2 p k)
          * val_main_v19 (F := Ideal) x1 W1 b1 W2 b2 (ix2 q k))
        (max (val_main_v21 (F := Ideal) x0 W1 b1 W2 b2 (ix1 p) * val_main_v22 (F := Ideal) x1 W1 b1 W2 b2 (ix1 q))
          (Ideal.ofBits .f32 0x322BCC77#32)) := by
  -- the contraction reads row p on the left and row q on the right
  have el : ∀ k : Fin 32, lidx_main_v20 (ix2 p q) k = ix2 p k :=
    fun k => funext fun a => Fin.ext (by match a with | ⟨0, _⟩ => rfl | ⟨1, _⟩ => rfl)
  have er : ∀ k : Fin 32, ridx_main_v20 (ix2 p q) k = ix2 q k :=
    fun k => funext fun a => Fin.ext (by match a with | ⟨0, _⟩ => rfl | ⟨1, _⟩ => rfl)
  -- the first norm is repeated along the columns, the second along the rows
  have en1 : idx_main_v23 (idx_main_v25 (ix2 p q)) = ix1 p :=
    funext fun a => Fin.ext (by match a with | ⟨0, _⟩ => rfl)
  have en2 : idx_main_v24 (idx_main_v26 (ix2 p q)) = ix1 q :=
    funext fun a => Fin.ext (by match a with | ⟨0, _⟩ => rfl)
  rw [val_main_v30_apply, val_main_v20_apply, val_main_v29_apply, val_main_v27_apply, val_main_v25_apply,
    val_main_v23_apply, en1, val_main_v26_apply, val_main_v24_apply, en2, val_main_v28_apply, val_main_cst_apply]
  simp only [el, er, Ideal.hostDivf_def, Ideal.maximumf_def, Ideal.mulf_def, Ideal.ofBits_def]

/-! ## The mask -/

/-- A conjunction with the bit 1 changes nothing. -/
theorem andi_one (b : BitVec 1) : IntOp.andi b 1#1 = b := by
  rcases BitVec.eq_zero_or_eq_one b with h | h <;> rw [h] <;> rfl

/-- A fold over an index set with one element combines that element with the initial value. -/
theorem fold_fin_one {α : Type} (op : α → α → α) [Std.Commutative op] [Std.Associative op] (b : α) (n : ℕ) (h : n = 1)
    (f : Fin n → α) : (Finset.univ : Finset (Fin n)).fold op b f = op (f ⟨0, by omega⟩) b := by
  subst h
  rw [Finset.univ_unique, Finset.fold_singleton]
  rfl

/-- The mask at (p, q): the label of row p of the first array equals the label of row q of the second. The
    conjunction over the trailing axis of extent one, from the bit 1, is the comparison itself. -/
theorem mask_at (x0 x1 : S8192x4.Idx → EReal) (p q : Fin 8192) :
    val_main_v40 (F := Ideal) x0 x1 (ix2 p q)
      = IntOp.cmpi .eq (Cert.Spec.labels x0 (ix2 p (0 : Fin 1))) (Cert.Spec.labels x1 (ix2 q (0 : Fin 1))) := by
  have hR : S8192x8192x1.Reduces [(2 : Fin 3)] S8192x8192 := by decide
  -- (p, q, 0) read back through the repetitions and the slice of the fourth column is (p, 3), resp. (q, 3)
  have e0 : idx_main_v31 (idx_main_v35 (idx_main_v37 (hR.lift (ix2 p q) ⟨0, by decide⟩))) = ix2 p (3 : Fin 4) :=
    funext fun a => Fin.ext (by match a with | ⟨0, _⟩ => rfl | ⟨1, _⟩ => rfl)
  have e1 : idx_main_v33 (idx_main_v36 (idx_main_v38 (hR.lift (ix2 p q) ⟨0, by decide⟩))) = ix2 q (3 : Fin 4) :=
    funext fun a => Fin.ext (by match a with | ⟨0, _⟩ => rfl | ⟨1, _⟩ => rfl)
  unfold val_main_v40
  rw [Host.reduce_eq_fold_single IntOp.andi _ _ reducesTo_S8192x8192x1_S8192x8192_d2 hR h_S_,
    fold_fin_one IntOp.andi _ (S8192x8192x1.size 2) rfl, Function.comp_apply, val_main_c_apply, andi_one,
    val_main_v39_apply, val_main_v37_apply, val_main_v35_apply, val_main_v32_apply, val_main_v31_apply, e0,
    val_main_v38_apply, val_main_v36_apply, val_main_v34_apply, val_main_v33_apply, e1]
  rfl

/-! ## The last product -/

/-- The float value of a bit times x is x when the bit is 1 and zero when it is 0: 1 * x = x and 0 * x = 0 hold
    for every extended real x. -/
theorem bit_mul (b : BitVec 1) (x : EReal) :
    (FloatOps.uitofp (F := Ideal) .f32 b : EReal) * x = Scalar.select b x Cert.Spec.zeroW := by
  rcases BitVec.eq_zero_or_eq_one b with h | h
  · rw [h, select_zero]
    show (((0 : ℕ) : ℝ) : EReal) * x = Ideal.ofBits .f32 0x00000000#32
    rw [Nat.cast_zero, EReal.coe_zero, zero_mul, Ideal.ofBits_zero_f32]
  · rw [h, select_one]
    show (((1 : ℕ) : ℝ) : EReal) * x = x
    rw [Nat.cast_one, EReal.coe_one, one_mul]

/-! ## The result -/

/-- The reference's result at (p, q) is the specification's entry: the cosine of the two rows' features where the
    labels agree, zero elsewhere. -/
theorem result_at (x0 x1 : S8192x4.Idx → EReal) (W1 : S3x64.Idx → EReal) (b1 : S64.Idx → EReal)
    (W2 : S64x32.Idx → EReal) (b2 : S32.Idx → EReal) (p q : Fin 8192) :
    val_main_v42 (F := Ideal) x0 x1 W1 b1 W2 b2 (ix2 p q) = Cert.Spec.G x0 x1 W1 b1 W2 b2 (ix2 p q) := by
  rw [val_main_v42_apply, val_main_v41_apply, Ideal.mulf_def, bit_mul, mask_at, quotient_at, norm_first, norm_second]
  simp only [feat_first, feat_second]
  rfl

/-- The reference's result is the specification's function of the six argument arrays. -/
theorem ref_eq (m : (ℓ : Loc nD τ sig) → Buf (Elt Ideal) ℓ) (c : Dev nD) :
    Cert.ReferenceIdeal.Value.res_main_v42 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v42_eq]
  funext i
  obtain ⟨p, q, rfl⟩ : ∃ (p q : Fin 8192), i = ix2 p q := ⟨i 0, i 1, eq_ix2 i⟩
  exact result_at _ _ _ _ _ _ p q

end Cert.ReferenceIdeal.RefValue

end
-- ==== Proof.lean ====
/-
  The certificate: a pairwise masked cosine similarity of two point sets after a shared two-layer perceptron, as
  three pipelined calls, against its array-level reference.

  Both programs, read on the extended reals, compute one function of the six argument arrays (the specification):
  the perceptron max(x W1 + b1, 0) W2 + b2 on the first three columns of each point set, and at entry (p, q) the
  inner product of the two feature rows divided by the larger of the product of their Euclidean norms and a small
  positive constant, kept where the integer labels of the two rows are equal and replaced by zero elsewhere. The
  kernel program tiles the rows in blocks and selects by the label comparison; the reference multiplies by the
  comparison converted to a float, 1 or 0, and 1 * x = x, 0 * x = 0 for every extended real x. The roundings to a
  narrower format on the way into the kernel's matrix product are the identity on the extended reals, and a block
  matrix product, a lane sum and their array-level counterparts are the same finite sums. No law used needs the
  inputs to be finite.

  The three frames: each program terminates without a fault and leaves its arguments as launched. The kernel
  programs' frames are their generated frame certificates; the reference's is its run with the result dropped.
  The idealization rewrote no operation, so the preservation claim is empty.
-/
import proofs.«173896_j76819785056586_1_alg».proof.Defs
import proofs.«173896_j76819785056586_1_alg».proof.Proof.Gen.Kernel
import proofs.«173896_j76819785056586_1_alg».proof.Proof.Gen.Kernel.Skeleton
import proofs.«173896_j76819785056586_1_alg».proof.Proof.Gen.Kernel.Launch
import proofs.«173896_j76819785056586_1_alg».proof.Proof.Gen.Kernel.Points
import proofs.«173896_j76819785056586_1_alg».proof.Proof.Gen.Kernel.Frame
import proofs.«173896_j76819785056586_1_alg».proof.Proof.Gen.KernelIdeal
import proofs.«173896_j76819785056586_1_alg».proof.Proof.Gen.KernelIdeal.Skeleton
import proofs.«173896_j76819785056586_1_alg».proof.Proof.Gen.KernelIdeal.Launch
import proofs.«173896_j76819785056586_1_alg».proof.Proof.Gen.KernelIdeal.Points
import proofs.«173896_j76819785056586_1_alg».proof.Proof.Gen.KernelIdeal.Frame
import proofs.«173896_j76819785056586_1_alg».proof.Proof.Gen.ReferenceIdeal
import proofs.«173896_j76819785056586_1_alg».proof.Proof.Gen.Pre_finite_inputs
import proofs.«173896_j76819785056586_1_alg».proof.Proof.Gen.ReferenceIdeal.Run
import proofs.«173896_j76819785056586_1_alg».proof.Proof.Gen.ReferenceIdeal.Read
import proofs.«173896_j76819785056586_1_alg».proof.Proof.Spec
import proofs.«173896_j76819785056586_1_alg».proof.Proof.KRun
import proofs.«173896_j76819785056586_1_alg».proof.Proof.KValue
import proofs.«173896_j76819785056586_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the specification's function of the
    arguments in their result arrays: the kernel program by its run with the result array named and that array
    read back through the three calls, the reference by its run and its result term read index by index. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Value.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_eq m' c, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
